-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x2 : Shape := ⟨2, ![96, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S96 .f32) (main_arg6 : FVec F S96x2 .f32) (main_arg7 : FVec F S2 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x2 .f32 := Host.absf main_arg6
  let main_cst_8 : FVec F S_ .f32 := constant S_ .f32 0x7F800000#32
  let main_v25 : FVec F S96x2 .f32 := broadcastInDim S96x2 ![] bcast_S_S96x2 main_cst_8
  let main_v26 : IVec S96x2 1 := cmpf .olt main_v24 main_v25
  let main_c_9 : IVec S_ 1 := constantI S_ 1 1#1
  let main_v27 : IVec S_ 1 := (fun x v => Host.reduce IntOp.andi x v reducesTo_S96x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x96 .f32) (main_arg3 : FVec F S96 .f32) (main_arg4 : FVec F S96x96 .f32) (main_arg5 : FVec F S96 .f32) (main_arg6 : FVec F S96x2 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S850000 : Shape := ⟨1, ![850000]⟩
abbrev S1x96 : Shape := ⟨2, ![1, 96]⟩
abbrev S1x2 : Shape := ⟨2, ![1, 2]⟩
abbrev S50000x96 : Shape := ⟨2, ![50000, 96]⟩
abbrev S2000x128 : Shape := ⟨2, ![2000, 128]⟩
abbrev S2000x96 : Shape := ⟨2, ![2000, 96]⟩
abbrev S850000x1 : Shape := ⟨2, ![850000, 1]⟩
abbrev S850000x96 : Shape := ⟨2, ![850000, 96]⟩
abbrev S50000x2 : Shape := ⟨2, ![50000, 2]⟩
abbrev S2000x2 : Shape := ⟨2, ![2000, 2]⟩
abbrev S2000 : Shape := ⟨1, ![2000]⟩
abbrev S2000x1 : Shape := ⟨2, ![2000, 1]⟩

abbrev nBuf : Space → Nat
  | .hbm => 89
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .i32⟩
  | .hbm, ⟨42, _⟩ => ⟨S50000, .f32⟩
  | .hbm, ⟨43, _⟩ => ⟨S850000, .i32⟩
  | .hbm, ⟨44, _⟩ => ⟨S850000, .i32⟩
  | .hbm, ⟨45, _⟩ => ⟨S850000, .f32⟩
  | .hbm, ⟨46, _⟩ => ⟨S128x96, .bf16⟩
  | .hbm, ⟨47, _⟩ => ⟨S96x96, .bf16⟩
  | .hbm, ⟨48, _⟩ => ⟨S96x2, .bf16⟩
  | .hbm, ⟨49, _⟩ => ⟨S1x96, .f32⟩
  | .hbm, ⟨50, _⟩ => ⟨S1x96, .f32⟩
  | .hbm, ⟨51, _⟩ => ⟨S1x2, .f32⟩
  | .hbm, ⟨52, _⟩ => ⟨S50000x96, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x96, .bf16⟩
  | .hbm, ⟨62, _⟩ => ⟨S850000x96, .f32⟩
  | .hbm, ⟨63, _⟩ => ⟨S850000x1, .f32⟩
  | .hbm, ⟨64, _⟩ => ⟨S850000x96, .f32⟩
  | .hbm, ⟨65, _⟩ => ⟨S850000x96, .f32⟩
  | .hbm, ⟨66, _⟩ => ⟨S_, .f32⟩
  | .hbm, ⟨67, _⟩ => ⟨S50000x96, .f32⟩
  | .hbm, ⟨68, _⟩ => ⟨S850000x1, .i32⟩
  | .hbm, ⟨69, _⟩ => ⟨S50000x96, .f32⟩
  | .hbm, ⟨70, _⟩ => ⟨S50000x96, .bf16⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x96, .bf16⟩
  | .hbm, ⟨80, _⟩ => ⟨S850000x96, .f32⟩
  | .hbm, ⟨81, _⟩ => ⟨S850000x1, .f32⟩
  | .hbm, ⟨82, _⟩ => ⟨S850000x96, .f32⟩
  | .hbm, ⟨83, _⟩ => ⟨S850000x96, .f32⟩
  | .hbm, ⟨84, _⟩ => ⟨S_, .f32⟩
  | .hbm, ⟨85, _⟩ => ⟨S50000x96, .f32⟩
  | .hbm, ⟨86, _⟩ => ⟨S850000x1, .i32⟩
  | .hbm, ⟨87, _⟩ => ⟨S50000x96, .f32⟩
  | .hbm, ⟨88, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x96, .bf16⟩
  | .local _ .vmem, ⟨3, _⟩ => ⟨S2000x96, .bf16⟩
  | .local _ .vmem, ⟨4, _⟩ => ⟨S2000x96, .bf16⟩
  | .local _ .vmem, ⟨5, _⟩ => ⟨S2000x96, .f32⟩
  | .local _ .vmem, ⟨6, _⟩ => ⟨S2000x96, .f32⟩
  | .local _ .vmem, ⟨7, _⟩ => ⟨S1x96, .f32⟩
  | .local _ .vmem, ⟨8, _⟩ => ⟨S96x96, .bf16⟩
  | .local _ .vmem, ⟨9, _⟩ => ⟨S2000x96, .bf16⟩
  | .local _ .vmem, ⟨10, _⟩ => ⟨S2000x96, .bf16⟩
  | .local _ .vmem, ⟨11, _⟩ => ⟨S2000x96, .f32⟩
  | .local _ .vmem, ⟨12, _⟩ => ⟨S2000x96, .f32⟩
  | .local _ .vmem, ⟨13, _⟩ => ⟨S1x96, .f32⟩
  | .local _ .vmem, ⟨14, _⟩ => ⟨S96x2, .bf16⟩
  | .local _ .vmem, ⟨15, _⟩ => ⟨S1x2, .f32⟩
  | .local _ .vmem, ⟨16, _⟩ => ⟨S2000x2, .f32⟩
  | .local _ .vmem, ⟨17, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x96 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x2 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000_S50000_S850000_d0 : Shape.Concatenates [S800000, S50000] S850000 0
  bitsLt_bf16_f32 : FTy.bits .bf16 < FTy.bits .f32
  shapeCasts_S96_S1x96 : S96.ShapeCasts S1x96
  shapeCasts_S2_S1x2 : S2.ShapeCasts S1x2
  inb_S2000x128_S2000x128_0_0 : ∀ a, (![0, 0] : Fin 2 → Nat) a + S2000x128.size a ≤ S2000x128.size a
  h_S2000x128 : 0 < S2000x128.numel
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S2000x96_S2000x96_0_0 : ∀ a, (![0, 0] : Fin 2 → Nat) a + S2000x96.size a ≤ S2000x96.size a
  h_S2000x96 : 0 < S2000x96.numel
  packedbf16_S2000x96_S2000x96_0_0 : (Rect.unit (s := S2000x96) ![0, 0] S2000x96.size inb_S2000x96_S2000x96_0_0).PackedRows (EltTy.packing .bf16)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S2000x96_S2000x96 : S2000x96.ShapeCasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S96x2_S96x2_0_0 : ∀ a, (![0, 0] : Fin 2 → Nat) a + S96x2.size a ≤ S96x2.size a
  h_S96x2 : 0 < S96x2.numel
  shapeCasts_S96x2_S96x2 : S96x2.ShapeCasts S96x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x96_S2000x96_1_0_0_1_n_n_wf : DotDims.WF S2000x128 S128x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x96_S96x96_S2000x96_1_0_0_1_n_n_wf : DotDims.WF S2000x96 S96x96 S2000x96 [1] [0] [0] [1] [] []
  dot_S2000x96_S96x2_S2000x2_1_0_0_1_n_n_wf : DotDims.WF S2000x96 S96x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .bf16 = 32 ∨ (Rect.block (s := S128x96) S128x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .bf16 = 32 ∨ (Rect.block (s := S50000x96) S2000x96.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .bf16 = 32 ∨ (Rect.block (s := S96x96) S96x96.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .bf16 = 32 ∨ (Rect.block (s := S50000x96) S2000x96.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x2.size a ≤ S96x2.size a
  hwx2_2 : ∀ i : grid2.Coords, EltTy.bits .bf16 = 32 ∨ (Rect.block (s := S96x2) S96x2.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x2.size a ≤ S50000x2.size a
  hwx2_4 : ∀ i : grid2.Coords, EltTy.bits .f32 = 32 ∨ (Rect.block (s := S50000x2) S2000x2.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x96_S96x2_S2000x2_1_0_0_1_n_n : DotDims S2000x96 S96x2 S2000x2 where
  lhsContracting := [1]
  rhsContracting := [0]
  lhsNonContracting := [0]
  rhsNonContracting := [1]
  lhsBatch := []
  rhsBatch := []
  wf := dot_S2000x96_S96x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S2000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S96x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S2000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S50000x96 : Shape := ⟨2, ![50000, 96]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S50000x2 : Shape := ⟨2, ![50000, 2]⟩
abbrev S1x2 : Shape := ⟨2, ![1, 2]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96x96, .f32⟩
  | 5 => ⟨S96, .f32⟩
  | 6 => ⟨S96x2, .f32⟩
  | 7 => ⟨S2, .f32⟩
  | 8 => ⟨S1x800000, .i32⟩
  | 9 => ⟨S800000, .i32⟩
  | 10 => ⟨S1x800000, .i32⟩
  | 11 => ⟨S800000, .i32⟩
  | 12 => ⟨S50000x96, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x96, .f32⟩
  | 51 => ⟨S800000x1, .f32⟩
  | 52 => ⟨S800000x96, .f32⟩
  | 53 => ⟨S800000x96, .f32⟩
  | 54 => ⟨S_, .f32⟩
  | 55 => ⟨S50000x96, .f32⟩
  | 56 => ⟨S800000x1, .i32⟩
  | 57 => ⟨S50000x96, .f32⟩
  | 58 => ⟨S50000, .f32⟩
  | 59 => ⟨S50000x1, .f32⟩
  | 60 => ⟨S50000x96, .f32⟩
  | 61 => ⟨S50000x96, .f32⟩
  | 62 => ⟨S50000x96, .f32⟩
  | 63 => ⟨S1x96, .f32⟩
  | 64 => ⟨S50000x96, .f32⟩
  | 65 => ⟨S50000x96, .f32⟩
  | 66 => ⟨S_, .f32⟩
  | 67 => ⟨S50000x96, .f32⟩
  | 68 => ⟨S50000x96, .f32⟩
  | 69 => ⟨S50000x96, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x96, .f32⟩
  | 108 => ⟨S800000x1, .f32⟩
  | 109 => ⟨S800000x96, .f32⟩
  | 110 => ⟨S800000x96, .f32⟩
  | 111 => ⟨S_, .f32⟩
  | 112 => ⟨S50000x96, .f32⟩
  | 113 => ⟨S800000x1, .i32⟩
  | 114 => ⟨S50000x96, .f32⟩
  | 115 => ⟨S50000, .f32⟩
  | 116 => ⟨S50000x1, .f32⟩
  | 117 => ⟨S50000x96, .f32⟩
  | 118 => ⟨S50000x96, .f32⟩
  | 119 => ⟨S50000x96, .f32⟩
  | 120 => ⟨S1x96, .f32⟩
  | 121 => ⟨S50000x96, .f32⟩
  | 122 => ⟨S50000x96, .f32⟩
  | 123 => ⟨S_, .f32⟩
  | 124 => ⟨S50000x96, .f32⟩
  | 125 => ⟨S50000x96, .f32⟩
  | 126 => ⟨S50000x2, .f32⟩
  | 127 => ⟨S1x2, .f32⟩
  | _ => ⟨S50000x128, .f32⟩

abbrev hbmTy0_1 (i : Nat) : BufTy := match i % 128 with
  | 0 => ⟨S50000x2, .f32⟩
  | 1 => ⟨S50000x2, .f32⟩
  | 2 => ⟨S_, .f32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x2, .f32⟩
  | 9 => ⟨S50000x2, .f32⟩
  | 10 => ⟨S50000x2, .f32⟩
  | 11 => ⟨S_, .f32⟩
  | 12 => ⟨S50000, .f32⟩
  | 13 => ⟨S50000x1, .f32⟩
  | 14 => ⟨S50000x1, .f32⟩
  | 15 => ⟨S50000x2, .f32⟩
  | 16 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call2_cst : Ref sig .tc := ⟨.hbm, 130, rfl⟩
abbrev main_call2_v0 : Ref sig .tc := ⟨.hbm, 131, rfl⟩
abbrev main_call2_cst_0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_cst_1 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_v98 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  dot_S50000x128_S128x96_S50000x96_1_0_0_1_n_n_wf : DotDims.WF S50000x128 S128x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x2_S50000x2_1_0_0_1_n_n_wf : DotDims.WF S50000x96 S96x2 S50000x2 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

class Facts : Prop extends Facts₀ where

variable [Facts]
-- ==== Proof.Spec.lean ====
/-
  The graph convolution network both programs compute, as functions of whole arrays over the extended reals.

  Nodes 0 … 49999, edges e = 0 … 799999 with a source `src e` and a target `dst e` (rows 0 and 1 of the edge
  array, 32-bit integers, any values). The degree of node i is 1 + the number of edges whose target is i; `dinv` is
  its inverse square root. An index into the node axis is normalised as a gather does it (a negative one has 50000
  added). The weight of edge e is `dinv (src e) · dinv (dst e)`.

  One aggregation of a feature array H (50000 × 96): node i receives the sum, over the edges whose target is i,
  of row `src e` of H times the edge's weight, plus its own row times `dinv i · dinv i`. One layer adds a bias
  row and clamps below at zero. The network is: H₁ = X·W₁, layer, ·W₂, layer, ·Wc + bc, and a row-wise log-softmax
  over the two classes.
-/
import proofs.«134879_j22325240005451_2_alg».proof.ReferenceIdeal
import Idealize.ShloMosaic.PureOps.Ideal

noncomputable section

namespace Cert.GCN

open Idealize.ShloMosaic Cert.ReferenceIdeal

variable [Cert.ReferenceIdeal.Facts]
open Cert.ReferenceIdeal.Facts₀ Cert.ReferenceIdeal.Facts

/-- Row 0 of the edge array: the edges' sources. -/
def srcOf (E : IVec S2x800000 32) : IVec S800000 32 :=
  shapeCast _ (extractStridedSlice S1x800000 ![0, 0] E slices_S2x800000_S1x800000_0_0) shapeCasts_S1x800000_S800000

/-- Row 1 of the edge array: the edges' targets. -/
def dstOf (E : IVec S2x800000 32) : IVec S800000 32 :=
  shapeCast _ (extractStridedSlice S1x800000 ![1, 0] E slices_S2x800000_S1x800000_1_0) shapeCasts_S1x800000_S800000

/-- A node index as a gather normalises it: a negative one has the number of nodes added. -/
def nidx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The inverse square root of each node's degree (one plus the number of edges that end at it). -/
def dinvOf (E : IVec S2x800000 32) : FVec Ideal S50000 .f32 :=
  Host.rsqrt (addf (Host.scatterAdd scatter_S50000_S800000x1_S800000_n_0_0_1
      (broadcastInDim S50000 ![] bcast_S_S50000 (constant S_ .f32 0x00000000#32))
      (broadcastInDim S800000x1 ![0] bcast_S800000_S800000x1_0 (dstOf E))
      (broadcastInDim S800000 ![] bcast_S_S800000 (constant S_ .f32 0x3F800000#32)))
    (broadcastInDim S50000 ![] bcast_S_S50000 (constant S_ .f32 0x3F800000#32)))

/-- The weight of each edge: the product of `dinv` at its (normalised) source and target. -/
def normOf (E : IVec S2x800000 32) : FVec Ideal S800000 .f32 :=
  mulf (Host.gather gather_S50000_S800000x1_S800000_n_0_n_n_0_1_1 (dinvOf E)
      (broadcastInDim S800000x1 ![0] bcast_S800000_S800000x1_0 (nidx (srcOf E))))
    (Host.gather gather_S50000_S800000x1_S800000_n_0_n_n_0_1_1 (dinvOf E)
      (broadcastInDim S800000x1 ![0] bcast_S800000_S800000x1_0 (nidx (dstOf E))))

/-- One aggregation, for any edge lists, edge weights `nrm` and self weights `dd`: node i receives the sum over the
    edges whose target is i of row (normalised) `src e` of H times `nrm e`, plus its own row times `dd i`. -/
def aggGen (src dst : IVec S800000 32) (nrm : FVec Ideal S800000 .f32) (dd : FVec Ideal S50000 .f32)
    (H : FVec Ideal S50000x96 .f32) : FVec Ideal S50000x96 .f32 :=
  addf (Host.scatterAdd scatter_S50000x96_S800000x1_S800000x96_1_0_0_1
      (broadcastInDim S50000x96 ![] bcast_S_S50000x96 (constant S_ .f32 0x00000000#32))
      (broadcastInDim S800000x1 ![0] bcast_S800000_S800000x1_0 dst)
      (mulf (Host.gather gather_S50000x96_S800000x1_S800000x96_1_0_n_n_0_1_196 H
          (broadcastInDim S800000x1 ![0] bcast_S800000_S800000x1_0 (nidx src)))
        (broadcastInDim S800000x96 ![0, 1] bcast_S800000x1_S800000x96_0_1
          (broadcastInDim S800000x1 ![0] bcast_S800000_S800000x1_0 nrm))))
    (mulf H (broadcastInDim S50000x96 ![0, 1] bcast_S50000x1_S50000x96_0_1
      (broadcastInDim S50000x1 ![0] bcast_S50000_S50000x1_0 dd)))

/-- One aggregation of a feature array over the graph: the edges' weights are `normOf`, a node's own `dinv · dinv`. -/
def aggOf (E : IVec S2x800000 32) (H : FVec Ideal S50000x96 .f32) : FVec Ideal S50000x96 .f32 :=
  aggGen (srcOf E) (dstOf E) (normOf E) (mulf (dinvOf E) (dinvOf E)) H

/-- An aggregated array plus a bias row (given as a 1 × 96 array), clamped below at zero. -/
def reluBias (A : FVec Ideal S50000x96 .f32) (b : FVec Ideal S1x96 .f32) : FVec Ideal S50000x96 .f32 :=
  maximumf (addf A (broadcastInDim S50000x96 ![0, 1] bcast_S1x96_S50000x96_0_1 b))
    (broadcastInDim S50000x96 ![] bcast_S_S50000x96 (constant S_ .f32 0x00000000#32))

/-- A bias vector as a 1 × 96 row. -/
def row96 (b : FVec Ideal S96 .f32) : FVec Ideal S1x96 .f32 := broadcastInDim S1x96 ![1] bcast_S96_S1x96_1 b

/-- A bias vector as a 1 × 2 row. -/
def row2 (b : FVec Ideal S2 .f32) : FVec Ideal S1x2 .f32 := broadcastInDim S1x2 ![1] bcast_S2_S1x2_1 b

/-- The classifier's logits: the features times the head's weights plus its bias row (given as a 1 × 2 array). -/
def logitsOf (R : FVec Ideal S50000x96 .f32) (Wc : FVec Ideal S96x2 .f32) (bc : FVec Ideal S1x2 .f32) : FVec Ideal S50000x2 .f32 :=
  addf (Host.dotGeneral dot_S50000x96_S96x2_S50000x2_1_0_0_1_n_n none R Wc)
    (broadcastInDim S50000x2 ![0, 1] bcast_S1x2_S50000x2_0_1 bc)

/-- The row maximum of a 50000 × 2 array, spread back over the row. -/
def rowMax (x : FVec Ideal S50000x2 .f32) : FVec Ideal S50000x2 .f32 :=
  broadcastInDim S50000x2 ![0, 1] bcast_S50000x1_S50000x2_0_1 (broadcastInDim S50000x1 ![0] bcast_S50000_S50000x1_0
    (maximumf (broadcastInDim S50000 ![] bcast_S_S50000 (constant S_ .f32 0xFF800000#32))
      (Host.reduce FloatOps.maximumf x (constant S_ .f32 0xFF800000#32) reducesTo_S50000x2_S50000_d1 h_S_)))

/-- The row-wise log-softmax over the two classes: each entry minus its row's maximum, minus the logarithm of the
    row's sum of the exponentials of those differences. -/
def logSoftmax (x : FVec Ideal S50000x2 .f32) : FVec Ideal S50000x2 .f32 :=
  subf (subf x (rowMax x))
    (broadcastInDim S50000x2 ![0, 1] bcast_S50000x1_S50000x2_0_1
      (Host.log (broadcastInDim S50000x1 ![0] bcast_S50000_S50000x1_0
        (Host.reduceAdd (Host.exp (subf x (rowMax x))) (constant S_ .f32 0x00000000#32) reducesTo_S50000x2_S50000_d1 h_S_))))

/-- The whole network as one function of the argument arrays. -/
def gcn (X : FVec Ideal S50000x128 .f32) (E : IVec S2x800000 32) (W1 : FVec Ideal S128x96 .f32) (b1 : FVec Ideal S96 .f32)
    (W2 : FVec Ideal S96x96 .f32) (b2 : FVec Ideal S96 .f32) (Wc : FVec Ideal S96x2 .f32) (bc : FVec Ideal S2 .f32) :
    FVec Ideal S50000x2 .f32 :=
  logSoftmax (logitsOf
    (reluBias (aggOf E (Host.dotGeneral dot_S50000x96_S96x96_S50000x96_1_0_0_1_n_n none
      (reluBias (aggOf E (Host.dotGeneral dot_S50000x128_S128x96_S50000x96_1_0_0_1_n_n none X W1)) (row96 b1)) W2)) (row96 b2))
    Wc (row2 bc))

end Cert.GCN

end
-- ==== Proof.KRun.lean ====
/-
  The kernel program's run with its result NAMED: every weakly fair execution of the three-region program terminates
  with the result buffer holding what the fold of the host stretches and the regions' write-backs leaves there
  (`Gen.W6`: the third region's output array after its last write-back), the arguments unchanged. The statement is
  the generated frame's with one more conjunct read off the same final thread state.
-/
import proofs.«134879_j22325240005451_2_alg».proof.Proof.Gen.KernelIdeal.Frame

set_option maxRecDepth 16384

noncomputable section

namespace Cert.GCN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.KernelIdeal.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program runs, its result buffer ends at the fold's value there, and its arguments end unchanged. -/
theorem kRun : θ_run defs (onTc (τ := τ) (main (F := F))) ⟨m, fun _ => 0, ρ⟩ (fun r => ∀ c : Dev nD,
      r.2.mem ((c.tc : Thread nD τ).loc main_v67) = W6 m ρ c (Proc.devRef .tc main_v67)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v67 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.GCN

end
-- ==== Proof.KSpec.lean ====
/-
  The aggregation as the kernel's program computes it: the node's own row is not added separately but carried by
  50000 extra edges i → i appended to the edge lists, with weight `dd i`; the feature rows are gathered from a
  half-width array and widened. Stated for any edge lists and weights.
-/
import proofs.«134879_j22325240005451_2_alg».proof.KernelIdeal
import Idealize.ShloMosaic.PureOps.Ideal

noncomputable section

namespace Cert.GCN

open Idealize.ShloMosaic Cert.KernelIdeal

variable [Cert.KernelIdeal.Facts]
open Cert.KernelIdeal.Facts₀ Cert.KernelIdeal.Facts

/-- An edge list with the 50000 self edges appended: entry 800000 + i is the node number i. -/
def augIdx (s : IVec S800000 32) : IVec S850000 32 :=
  concatenate S850000 0 [⟨S800000, s⟩, ⟨S50000, iotaInDim S50000 32 0⟩] concatenates_S800000_S50000_S850000_d0

/-- The edges' weights with the self edges' appended. -/
def augW (nrm : FVec Ideal S800000 .f32) (dd : FVec Ideal S50000 .f32) : FVec Ideal S850000 .f32 :=
  concatenate S850000 0 [⟨S800000, nrm⟩, ⟨S50000, dd⟩] concatenates_S800000_S50000_S850000_d0

/-- A node index of the augmented list as a gather normalises it. -/
def nidxAug (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- The aggregation over the augmented edge lists: the widened rows of `H` at the normalised augmented sources, times
    the augmented weights, summed at the augmented targets. -/
def kAggOf (src dst : IVec S800000 32) (nrm : FVec Ideal S800000 .f32) (dd : FVec Ideal S50000 .f32)
    (H : FVec Ideal S50000x96 .bf16) : FVec Ideal S50000x96 .f32 :=
  Host.scatterAdd scatter_S50000x96_S850000x1_S850000x96_1_0_0_1
    (broadcastInDim S50000x96 ![] bcast_S_S50000x96 (constant S_ .f32 0x00000000#32))
    (broadcastInDim S850000x1 ![0] bcast_S850000_S850000x1_0 (augIdx dst))
    (mulf (extf .f32 (Host.gather gather_S50000x96_S850000x1_S850000x96_1_0_n_n_0_1_196 H
          (broadcastInDim S850000x1 ![0] bcast_S850000_S850000x1_0 (nidxAug (augIdx src)))) bitsLt_bf16_f32)
      (broadcastInDim S850000x96 ![0, 1] bcast_S850000x1_S850000x96_0_1
        (broadcastInDim S850000x1 ![0] bcast_S850000_S850000x1_0 (augW nrm dd))))

end Cert.GCN

end
-- ==== Proof.KStage.lean ====
/-
  What the kernel program's host stretches compute, as whole-array functions of the buffers they read.

  Before the first region the host slices the edge array into sources and targets, computes the degrees'
  inverse square roots and the edges' weights, appends the 50000 self edges to the two lists and their weights
  `dinv · dinv` to the weights, rounds the three weight matrices and reshapes the three bias vectors to rows.
  Between the regions it gathers the previous region's output rows at the (normalised) augmented sources, widens
  them, multiplies by the augmented weights and sums them at the augmented targets.
-/
import proofs.«134879_j22325240005451_2_alg».proof.Proof.Spec
import proofs.«134879_j22325240005451_2_alg».proof.Proof.KSpec
import proofs.«134879_j22325240005451_2_alg».proof.Proof.Gen.KernelIdeal.Launch
import Idealize.ShloMosaic.Lib.StableHlo.Run

noncomputable section

namespace Cert.GCN

open Idealize.ShloMosaic Idealize.ShloMosaic.TcCoe Idealize.SL.Sem Idealize.ShloMosaic.StableHlo
open Cert.KernelIdeal

variable [Cert.KernelIdeal.Facts] [Cert.ReferenceIdeal.Facts]
open Cert.KernelIdeal.Facts₀ Cert.KernelIdeal.Facts

/-- The aggregation from augmented lists as given: the widened rows of `H` at the normalised sources, times the
    weights, summed at the targets. -/
def kAggAug (sa da : IVec S850000 32) (wa : FVec Ideal S850000 .f32) (H : FVec Ideal S50000x96 .bf16) :
    FVec Ideal S50000x96 .f32 :=
  Host.scatterAdd scatter_S50000x96_S850000x1_S850000x96_1_0_0_1
    (broadcastInDim S50000x96 ![] bcast_S_S50000x96 (constant S_ .f32 0x00000000#32))
    (broadcastInDim S850000x1 ![0] bcast_S850000_S850000x1_0 da)
    (mulf (extf .f32 (Host.gather gather_S50000x96_S850000x1_S850000x96_1_0_n_n_0_1_196 H
          (broadcastInDim S850000x1 ![0] bcast_S850000_S850000x1_0 (nidxAug sa))) bitsLt_bf16_f32)
      (broadcastInDim S850000x96 ![0, 1] bcast_S850000x1_S850000x96_0_1
        (broadcastInDim S850000x1 ![0] bcast_S850000_S850000x1_0 wa)))

theorem kAggOf_eq_aug (src dst : IVec S800000 32) (nrm : FVec Ideal S800000 .f32) (dd : FVec Ideal S50000 .f32)
    (H : FVec Ideal S50000x96 .bf16) :
    kAggOf src dst nrm dd H = kAggAug (augIdx src) (augIdx dst) (augW nrm dd) H := rfl

variable (U : Valuation τ sig (Elt Ideal))

/-! ## The stretch between regions 0 and 1 -/

theorem stage1_v51 :
    StableHlo.after (Gen.hostOps1 (F := Ideal)) U (Proc.devRef .tc main_v51)
      = kAggAug (U (Proc.devRef .tc main_v28)) (U (Proc.devRef .tc main_v29)) (U (Proc.devRef .tc main_v30))
          (U (Proc.devRef .tc main_v37)) := by
  after_results_simp
  rfl

theorem stage1_v34 : StableHlo.after (Gen.hostOps1 (F := Ideal)) U (Proc.devRef .tc main_v34) = U (Proc.devRef .tc main_v34) := by
  after_results_simp
theorem stage1_v32 : StableHlo.after (Gen.hostOps1 (F := Ideal)) U (Proc.devRef .tc main_v32) = U (Proc.devRef .tc main_v32) := by
  after_results_simp

/-! ## The stretch between regions 1 and 2 -/

theorem stage2_v66 :
    StableHlo.after (Gen.hostOps2 (F := Ideal)) U (Proc.devRef .tc main_v66)
      = kAggAug (U (Proc.devRef .tc main_v28)) (U (Proc.devRef .tc main_v29)) (U (Proc.devRef .tc main_v30))
          (U (Proc.devRef .tc main_v52)) := by
  after_results_simp
  rfl

theorem stage2_v35 : StableHlo.after (Gen.hostOps2 (F := Ideal)) U (Proc.devRef .tc main_v35) = U (Proc.devRef .tc main_v35) := by
  after_results_simp
theorem stage2_v33 : StableHlo.after (Gen.hostOps2 (F := Ideal)) U (Proc.devRef .tc main_v33) = U (Proc.devRef .tc main_v33) := by
  after_results_simp
theorem stage2_v36 : StableHlo.after (Gen.hostOps2 (F := Ideal)) U (Proc.devRef .tc main_v36) = U (Proc.devRef .tc main_v36) := by
  after_results_simp
theorem stage2_v28 : StableHlo.after (Gen.hostOps2 (F := Ideal)) U (Proc.devRef .tc main_v28) = U (Proc.devRef .tc main_v28) := by
  after_results_simp
theorem stage2_v29 : StableHlo.after (Gen.hostOps2 (F := Ideal)) U (Proc.devRef .tc main_v29) = U (Proc.devRef .tc main_v29) := by
  after_results_simp
theorem stage2_v30 : StableHlo.after (Gen.hostOps2 (F := Ideal)) U (Proc.devRef .tc main_v30) = U (Proc.devRef .tc main_v30) := by
  after_results_simp

theorem stage1_v28 : StableHlo.after (Gen.hostOps1 (F := Ideal)) U (Proc.devRef .tc main_v28) = U (Proc.devRef .tc main_v28) := by
  after_results_simp
theorem stage1_v29 : StableHlo.after (Gen.hostOps1 (F := Ideal)) U (Proc.devRef .tc main_v29) = U (Proc.devRef .tc main_v29) := by
  after_results_simp
theorem stage1_v30 : StableHlo.after (Gen.hostOps1 (F := Ideal)) U (Proc.devRef .tc main_v30) = U (Proc.devRef .tc main_v30) := by
  after_results_simp
theorem stage1_v35 : StableHlo.after (Gen.hostOps1 (F := Ideal)) U (Proc.devRef .tc main_v35) = U (Proc.devRef .tc main_v35) := by
  after_results_simp
theorem stage1_v33 : StableHlo.after (Gen.hostOps1 (F := Ideal)) U (Proc.devRef .tc main_v33) = U (Proc.devRef .tc main_v33) := by
  after_results_simp
theorem stage1_v36 : StableHlo.after (Gen.hostOps1 (F := Ideal)) U (Proc.devRef .tc main_v36) = U (Proc.devRef .tc main_v36) := by
  after_results_simp

/-! ## The stretch before region 0 -/

theorem stage0_arg0 : StableHlo.after (Gen.hostOps0 (F := Ideal)) U (Proc.devRef .tc main_arg0) = U (Proc.devRef .tc main_arg0) := by
  after_results_simp

theorem stage0_v28 : StableHlo.after (Gen.hostOps0 (F := Ideal)) U (Proc.devRef .tc main_v28)
    = augIdx (srcOf (U (Proc.devRef .tc main_arg1))) := by
  after_results_simp
  rfl

theorem stage0_v29 : StableHlo.after (Gen.hostOps0 (F := Ideal)) U (Proc.devRef .tc main_v29)
    = augIdx (dstOf (U (Proc.devRef .tc main_arg1))) := by
  after_results_simp
  rfl

theorem stage0_v30 : StableHlo.after (Gen.hostOps0 (F := Ideal)) U (Proc.devRef .tc main_v30)
    = augW (normOf (U (Proc.devRef .tc main_arg1))) (mulf (dinvOf (U (Proc.devRef .tc main_arg1))) (dinvOf (U (Proc.devRef .tc main_arg1)))) := by
  after_results_simp
  refine congrArg₂ augW ?_ ?_
  · after_results_simp
    rfl
  · after_results_simp
    rfl

theorem stage0_v31 : StableHlo.after (Gen.hostOps0 (F := Ideal)) U (Proc.devRef .tc main_v31)
    = (U (Proc.devRef .tc main_arg2) : S128x96.Idx → EReal) := by
  after_results_simp
  rfl
theorem stage0_v32 : StableHlo.after (Gen.hostOps0 (F := Ideal)) U (Proc.devRef .tc main_v32)
    = (U (Proc.devRef .tc main_arg4) : S96x96.Idx → EReal) := by
  after_results_simp
  rfl
theorem stage0_v33 : StableHlo.after (Gen.hostOps0 (F := Ideal)) U (Proc.devRef .tc main_v33)
    = (U (Proc.devRef .tc main_arg6) : S96x2.Idx → EReal) := by
  after_results_simp
  rfl

theorem stage0_v34 : StableHlo.after (Gen.hostOps0 (F := Ideal)) U (Proc.devRef .tc main_v34)
    = shapeCast S1x96 (U (Proc.devRef .tc main_arg3)) shapeCasts_S96_S1x96 := by
  after_results_simp
  rfl
theorem stage0_v35 : StableHlo.after (Gen.hostOps0 (F := Ideal)) U (Proc.devRef .tc main_v35)
    = shapeCast S1x96 (U (Proc.devRef .tc main_arg5)) shapeCasts_S96_S1x96 := by
  after_results_simp
  rfl
theorem stage0_v36 : StableHlo.after (Gen.hostOps0 (F := Ideal)) U (Proc.devRef .tc main_v36)
    = shapeCast S1x2 (U (Proc.devRef .tc main_arg7)) shapeCasts_S2_S1x2 := by
  after_results_simp
  rfl

end Cert.GCN

end
-- ==== Proof.Region0.lean ====
/-
  Region 0 of the kernel program (the first matrix product), as one whole-array statement.

  The region runs over 25 grid points; point t reads rows 2000·t … 2000·t + 1999 of the 50000 × 128 operand X and the
  whole 128 × 96 weight array W, and writes rows 2000·t … 2000·t + 1999 of the 50000 × 96 output. At the extended
  reals the roundings are the identity, so the body's value at (p, q) of its block is the sum over k of
  X (2000·t + p, k) · W (k, q); the reference's dot_general at (i, j) is the sum over k of X (i, k) · W (k, j).
  Every row i lies in the block of the point i / 2000, every point writes its block back, hence after the 25
  write-backs the output array is the reference's product of the region's input arrays.
-/
import proofs.«134879_j22325240005451_2_alg».proof.Proof.Spec
import proofs.«134879_j22325240005451_2_alg».proof.Proof.KSpec
import proofs.«134879_j22325240005451_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.GCN

open Idealize.ShloMosaic Idealize.ShloMosaic.TcCoe Idealize.SL.Sem
open Idealize.ShloMosaic.Pipeline (Dat)

variable [Cert.KernelIdeal.Facts] [Cert.ReferenceIdeal.Facts]

namespace Region0

open Cert.KernelIdeal Cert.KernelIdeal.Gen

theorem pay_eq (x0 : Vec Ideal S2000x128 .f32) (x1 : Vec Ideal S128x96 .bf16) :
    k0_pay1 (F := Ideal) x0 x1 = FloatOps.matmul (F := Ideal) (φ₁ := .bf16) (φ₂ := .bf16) dot_S2000x128_S128x96_S2000x96_1_0_0_1_n_n none x0 x1 (constant S2000x96 .f32 0x00000000#32) := by
  unfold k0_pay1
  simp only [shapeCast_self]
  rfl

theorem lhs0 (i : S2000x96.Idx) (q : dot_S2000x128_S128x96_S2000x96_1_0_0_1_n_n.contr.Idx) :
    (dot_S2000x128_S128x96_S2000x96_1_0_0_1_n_n.lhsIdx i q 0).val = (i 0).val := by
  unfold DotDims.lhsIdx
  rw [dif_neg (show ¬(0 : Fin S2000x128.rank) ∈ dot_S2000x128_S128x96_S2000x96_1_0_0_1_n_n.lhsBatch by decide), dif_pos (show (0 : Fin S2000x128.rank) ∈ dot_S2000x128_S128x96_S2000x96_1_0_0_1_n_n.lhsNonContracting by decide)]
  rfl
theorem lhs1 (i : S2000x96.Idx) (q : dot_S2000x128_S128x96_S2000x96_1_0_0_1_n_n.contr.Idx) :
    (dot_S2000x128_S128x96_S2000x96_1_0_0_1_n_n.lhsIdx i q 1).val = (q ⟨0, by decide⟩).val :=
  dot_S2000x128_S128x96_S2000x96_1_0_0_1_n_n.lhsIdx_val_of_single rfl i q
theorem rhs0 (i : S2000x96.Idx) (q : dot_S2000x128_S128x96_S2000x96_1_0_0_1_n_n.contr.Idx) :
    (dot_S2000x128_S128x96_S2000x96_1_0_0_1_n_n.rhsIdx i q 0).val = (q ⟨0, by decide⟩).val :=
  dot_S2000x128_S128x96_S2000x96_1_0_0_1_n_n.rhsIdx_val_of_single rfl i q
theorem rhs1 (i : S2000x96.Idx) (q : dot_S2000x128_S128x96_S2000x96_1_0_0_1_n_n.contr.Idx) :
    (dot_S2000x128_S128x96_S2000x96_1_0_0_1_n_n.rhsIdx i q 1).val = (i 1).val := by
  unfold DotDims.rhsIdx
  rw [dif_neg (show ¬(1 : Fin S128x96.rank) ∈ dot_S2000x128_S128x96_S2000x96_1_0_0_1_n_n.rhsBatch by decide), dif_pos (show (1 : Fin S128x96.rank) ∈ dot_S2000x128_S128x96_S2000x96_1_0_0_1_n_n.rhsNonContracting by decide)]
  rfl

theorem pay_apply (x0 : Vec Ideal S2000x128 .f32) (x1 : Vec Ideal S128x96 .bf16) (p : Fin 2000) (q : Fin 96) :
    k0_pay1 (F := Ideal) x0 x1 (ValueIdx.ix2 p q) = ∑ k : Fin 128, x0 (ValueIdx.ix2 p k) * x1 (ValueIdx.ix2 k q) := by
  rw [pay_eq]
  refine (Ideal.matmul_constant_zero_apply (φ₁ := .bf16) (φ₂ := .bf16) dot_S2000x128_S128x96_S2000x96_1_0_0_1_n_n none x0 x1 (ValueIdx.ix2 p q)).trans ?_
  rw [← Equiv.sum_comp (ValueIdx.contrEquiv1 dot_S2000x128_S128x96_S2000x96_1_0_0_1_n_n 128 rfl rfl).symm]
  refine Finset.sum_congr rfl fun k _ => ?_
  have hk := ValueIdx.contrEquiv1_symm_val dot_S2000x128_S128x96_S2000x96_1_0_0_1_n_n 128 rfl rfl k
  have el : dot_S2000x128_S128x96_S2000x96_1_0_0_1_n_n.lhsIdx (ValueIdx.ix2 p q) ((ValueIdx.contrEquiv1 dot_S2000x128_S128x96_S2000x96_1_0_0_1_n_n 128 rfl rfl).symm k) = ValueIdx.ix2 p k := funext fun a => Fin.ext (by
    match a with
    | ⟨0, _⟩ => exact lhs0 _ _
    | ⟨1, _⟩ => exact (lhs1 _ _).trans hk)
  have er : dot_S2000x128_S128x96_S2000x96_1_0_0_1_n_n.rhsIdx (ValueIdx.ix2 p q) ((ValueIdx.contrEquiv1 dot_S2000x128_S128x96_S2000x96_1_0_0_1_n_n 128 rfl rfl).symm k) = ValueIdx.ix2 k q := funext fun a => Fin.ext (by
    match a with
    | ⟨0, _⟩ => exact (rhs0 _ _).trans hk
    | ⟨1, _⟩ => exact rhs1 _ _)
  rw [el, er]

/-- The reference's whole-array product: entry (i, j) is the sum over k of X (i,k) · W (k,j). -/
abbrev G (X : FVec Ideal Cert.ReferenceIdeal.S50000x128 .f32) (W : FVec Ideal Cert.ReferenceIdeal.S128x96 .f32) :
    Cert.ReferenceIdeal.S50000x96.Idx → EReal :=
  Host.dotGeneral (F := Ideal) (φ₁ := .f32) (φ₂ := .f32) Cert.ReferenceIdeal.dot_S50000x128_S128x96_S50000x96_1_0_0_1_n_n none X W

theorem rlhs0 (i : Cert.ReferenceIdeal.S50000x96.Idx) (q : Cert.ReferenceIdeal.dot_S50000x128_S128x96_S50000x96_1_0_0_1_n_n.contr.Idx) :
    (Cert.ReferenceIdeal.dot_S50000x128_S128x96_S50000x96_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x96_S50000x96_1_0_0_1_n_n.lhsBatch from List.not_mem_nil), dif_pos (show (0 : Fin Cert.ReferenceIdeal.S50000x128.rank) ∈ Cert.ReferenceIdeal.dot_S50000x128_S128x96_S50000x96_1_0_0_1_n_n.lhsNonContracting from List.mem_singleton.mpr rfl)]
  rfl
theorem rrhs1 (i : Cert.ReferenceIdeal.S50000x96.Idx) (q : Cert.ReferenceIdeal.dot_S50000x128_S128x96_S50000x96_1_0_0_1_n_n.contr.Idx) :
    (Cert.ReferenceIdeal.dot_S50000x128_S128x96_S50000x96_1_0_0_1_n_n.rhsIdx i q 1).val = (i 1).val := by
  unfold DotDims.rhsIdx
  rw [dif_neg (show ¬(1 : Fin Cert.ReferenceIdeal.S128x96.rank) ∈ Cert.ReferenceIdeal.dot_S50000x128_S128x96_S50000x96_1_0_0_1_n_n.rhsBatch from List.not_mem_nil), dif_pos (show (1 : Fin Cert.ReferenceIdeal.S128x96.rank) ∈ Cert.ReferenceIdeal.dot_S50000x128_S128x96_S50000x96_1_0_0_1_n_n.rhsNonContracting from List.mem_singleton.mpr rfl)]
  rfl

theorem G_apply (X : FVec Ideal Cert.ReferenceIdeal.S50000x128 .f32) (W : FVec Ideal Cert.ReferenceIdeal.S128x96 .f32) (i : Fin 50000) (j : Fin 96) :
    G X W (ValueIdx.ix2 i j) = ∑ k : Fin 128, X (ValueIdx.ix2 i k) * W (ValueIdx.ix2 k j) := by
  unfold G
  simp only [Host.dotGeneral]
  rw [Ideal.dotGeneral_apply, ← Equiv.sum_comp (ValueIdx.contrEquiv1 Cert.ReferenceIdeal.dot_S50000x128_S128x96_S50000x96_1_0_0_1_n_n 128 rfl rfl).symm]
  refine Finset.sum_congr rfl fun k _ => ?_
  have hk := ValueIdx.contrEquiv1_symm_val Cert.ReferenceIdeal.dot_S50000x128_S128x96_S50000x96_1_0_0_1_n_n 128 rfl rfl k
  have el : Cert.ReferenceIdeal.dot_S50000x128_S128x96_S50000x96_1_0_0_1_n_n.lhsIdx (ValueIdx.ix2 i j) ((ValueIdx.contrEquiv1 Cert.ReferenceIdeal.dot_S50000x128_S128x96_S50000x96_1_0_0_1_n_n 128 rfl rfl).symm k) = ValueIdx.ix2 i k := funext fun a => Fin.ext (by
    match a with
    | ⟨0, _⟩ => exact rlhs0 _ _
    | ⟨1, _⟩ => exact (Cert.ReferenceIdeal.dot_S50000x128_S128x96_S50000x96_1_0_0_1_n_n.lhsIdx_val_of_single rfl _ _).trans hk)
  have er : Cert.ReferenceIdeal.dot_S50000x128_S128x96_S50000x96_1_0_0_1_n_n.rhsIdx (ValueIdx.ix2 i j) ((ValueIdx.contrEquiv1 Cert.ReferenceIdeal.dot_S50000x128_S128x96_S50000x96_1_0_0_1_n_n 128 rfl rfl).symm k) = ValueIdx.ix2 k j := funext fun a => Fin.ext (by
    match a with
    | ⟨0, _⟩ => exact (Cert.ReferenceIdeal.dot_S50000x128_S128x96_S50000x96_1_0_0_1_n_n.rhsIdx_val_of_single rfl _ _).trans hk
    | ⟨1, _⟩ => exact rrhs1 _ _)
  rw [el, er]

theorem hz : (![0, 0] : Fin 2 → Nat) = fun _ => 0 := funext fun a => by fin_cases a <;> rfl

omit [Cert.KernelIdeal.Facts] [Cert.ReferenceIdeal.Facts] in
/-- The printed index maps, decided over the grid (at the proved instance of the program's facts). -/
theorem idx_facts_aux : letI : Cert.KernelIdeal.Facts := Cert.KernelIdeal.Gen.facts
    ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

omit [Cert.ReferenceIdeal.Facts] in
/-- The printed index maps: the row-blocked operand and the output move together along axis 0, at block index t;
    every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 := idx_facts_aux

omit [Cert.ReferenceIdeal.Facts] in
/-- Every point's row offset stays inside the 50000 rows. -/
theorem row_lt (t : Fin cfg0.N) (p : Fin 2000) : t.val * 2000 + p.val < 50000 := by
  have hN : grid0.N = 25 := Gen.N_0
  have ht : t.val < grid0.N := t.isLt
  have hp := p.isLt
  omega

variable (V : (c : Dev nD) → (b : Ref sig .tc) → Buf (Elt Ideal) ((c : Thread nD τ).loc b))

omit [Cert.ReferenceIdeal.Facts] in
/-- The row-blocked operand's block at point t, read at (p, k), is the array at row 2000·t + p. -/
theorem blk0_apply (c : Dev nD) (t : Fin cfg0.N) (p : Fin 2000) (k : Fin 128) :
    (iblk0 (F := Ideal) V c 0 t : Vec Ideal S2000x128 .f32) (ValueIdx.ix2 p k)
      = (V c main_arg0 : S50000x128.Idx → EReal) (ValueIdx.ix2 (⟨t.val * 2000 + p.val, row_lt t p⟩ : Fin 50000) k) := by
  obtain ⟨e0, e1, e2, e3, e4, e5⟩ := idx_facts t
  show (V c main_arg0 : S50000x128.Idx → EReal) (((cfg0.win 0).blk t).view.emb (ValueIdx.ix2 p k)) = _
  refine congrArg (V c main_arg0 : S50000x128.Idx → EReal) ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

omit [Cert.ReferenceIdeal.Facts] in
/-- The weights' block at every point is the whole array. -/
theorem blk1_apply (c : Dev nD) (t : Fin cfg0.N) (k : Fin 128) (q : Fin 96) :
    (iblk0 (F := Ideal) V c 1 t : Vec Ideal S128x96 .bf16) (ValueIdx.ix2 k q)
      = (V c main_v31 : S128x96.Idx → EReal) (ValueIdx.ix2 k q) := by
  obtain ⟨e0, e1, e2, e3, e4, e5⟩ := idx_facts t
  show (V c main_v31 : S128x96.Idx → EReal) (((cfg0.win 1).blk t).view.emb (ValueIdx.ix2 k q)) = _
  refine congrArg (V c main_v31 : S128x96.Idx → EReal) ?_
  funext a; apply Fin.ext
  match a with
  | ⟨0, _⟩ => show win0_1.index t (0 : Fin 2) * 128 + 1 * k.val = k.val; rw [e2]; omega
  | ⟨1, _⟩ => show win0_1.index t (1 : Fin 2) * 96 + 1 * q.val = q.val; rw [e3]; omega

omit [Cert.ReferenceIdeal.Facts] in
/-- An element (p, q) of the output's block at point t sits in the array at row 2000·t + p, column q. -/
theorem emb2_eq (t : Fin cfg0.N) (p : Fin 2000) (q : Fin 96) :
    (((cfg0.win 2).blk t).view.emb (ValueIdx.ix2 p q) : S50000x96.Idx)
      = ValueIdx.ix2 (⟨t.val * 2000 + p.val, row_lt t p⟩ : Fin 50000) q := by
  obtain ⟨e0, e1, e2, e3, e4, e5⟩ := idx_facts t
  funext a; apply Fin.ext
  match a with
  | ⟨0, _⟩ => show win0_2.index t (0 : Fin 2) * 2000 + 1 * p.val = t.val * 2000 + p.val; rw [e4]; omega
  | ⟨1, _⟩ => show win0_2.index t (1 : Fin 2) * 96 + 1 * q.val = q.val; rw [e5]; omega

/-- What point t writes back is block t of the whole-array product of the region's input arrays. -/
theorem flushed_eq (c : Dev nD) (t : Fin cfg0.N) :
    (dat0 (F := Ideal) V c).flushed 2 t = ((cfg0.win 2).blk t).view.read (Elt Ideal)
      (G (V c main_arg0 : FVec Ideal Cert.ReferenceIdeal.S50000x128 .f32) (V c main_v31 : FVec Ideal Cert.ReferenceIdeal.S128x96 .f32)) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x96) hz]
  refine funext fun (y : S2000x96.Idx) => ?_
  obtain ⟨p, q, rfl⟩ : ∃ (p : Fin 2000) (q : Fin 96), y = ValueIdx.ix2 p q := ⟨y 0, y 1, ValueIdx.eq_ix2 y⟩
  show k0_pay1 (F := Ideal) (iblk0 V c 0 t) (iblk0 V c 1 t) (ValueIdx.ix2 p q)
    = G (V c main_arg0) (V c main_v31) (((cfg0.win 2).blk t).view.emb (ValueIdx.ix2 p q))
  refine (pay_apply _ _ p q).trans ?_
  refine Eq.trans ?_ (congrArg (G (V c main_arg0) (V c main_v31)) (emb2_eq t p q)).symm
  refine Eq.trans ?_ (G_apply _ _ _ _).symm
  refine Finset.sum_congr rfl fun k _ => ?_
  rw [blk0_apply V c t p k, blk1_apply V c t k q]

omit [Cert.ReferenceIdeal.Facts] in
/-- An index of the array is in point t's block iff each coordinate is in the block's range on its axis. -/
theorem mem_blk (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v37).slice (win0_2.rect t)).set ↔ _
  rw [View.set_slice_whole, Rect.mem_set_unit]
  exact Iff.rfl

omit [Cert.ReferenceIdeal.Facts] in
/-- Every row r lies in the block of the point r / 2000, which writes its block back. -/
theorem cover (i : S50000x96.Idx) :
    ∃ t : Fin cfg0.N, (cfg0.win 2).flush t = true ∧ i ∈ ((cfg0.win 2).blk t).view.set := by
  have hN : grid0.N = 25 := Gen.N_0
  have hi0 : (i 0).val < 50000 := (i 0).isLt
  have hi1 : (i 1).val < 96 := (i 1).isLt
  let t : Fin cfg0.N := ⟨(i 0).val / 2000, by show (i 0).val / 2000 < grid0.N; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 96 ≤ (i 1).val ∧ (i 1).val < win0_2.index t (1 : Fin 2) * 96 + 96; rw [e5]; omega

end Region0

open Cert.KernelIdeal Cert.KernelIdeal.Gen in
theorem region0_final (V : (c : Dev nD) → (b : Ref sig .tc) → Buf (Elt Ideal) ((c : Thread nD τ).loc b)) (c : Dev nD) :
    ((dat0 (F := Ideal) V c).arrAt 2 cfg0.N : Cert.ReferenceIdeal.S50000x96.Idx → EReal)
      = Host.dotGeneral (F := Ideal) (φ₁ := .f32) (φ₂ := .f32) Cert.ReferenceIdeal.dot_S50000x128_S128x96_S50000x96_1_0_0_1_n_n none
          (V c main_arg0 : FVec Ideal Cert.ReferenceIdeal.S50000x128 .f32)
          (V c main_v31 : FVec Ideal Cert.ReferenceIdeal.S128x96 .f32) :=
  (dat0 (F := Ideal) V c).arrAt_eq_of_cover 2 (Region0.G (V c main_arg0) (V c main_v31)) (fun t _ => Region0.flushed_eq V c t) Region0.cover

end Cert.GCN
end
-- ==== Proof.Region1.lean ====
/-
  Region 1 of the kernel program (bias, clamp at zero, the second matrix product), as one whole-array statement.

  The region runs over 25 grid points; point t reads rows 2000·t … 2000·t + 1999 of the 50000 × 96 aggregated features
  A, the whole 1 × 96 bias row b and the whole 96 × 96 weight array W, and writes rows 2000·t … 2000·t + 1999 of the
  50000 × 96 output. At the extended reals the roundings are the identity, so the body's value at (p, q) of its block is
  the sum over k of max (A (2000·t + p, k) + b (0, k)) 0 · W (k, q); the reference's dot_general of the biased, clamped
  features with W is the same sum at (i, j) = (2000·t + p, q). Every row lies in the block of the point row / 2000 and
  every point writes its block back, hence after the 25 write-backs the output array is that product.
-/
import proofs.«134879_j22325240005451_2_alg».proof.Proof.Spec
import proofs.«134879_j22325240005451_2_alg».proof.Proof.KSpec
import proofs.«134879_j22325240005451_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.GCN

open Idealize.ShloMosaic Idealize.ShloMosaic.TcCoe Idealize.SL.Sem
open Idealize.ShloMosaic.Pipeline (Dat)

variable [Cert.KernelIdeal.Facts] [Cert.ReferenceIdeal.Facts]

namespace Region1

/-! ## The two contractions, read at an index -/

section KernelDot
open Cert.KernelIdeal

theorem klhs0 (j : S2000x96.Idx) (k : dot_S2000x96_S96x96_S2000x96_1_0_0_1_n_n.contr.Idx) : (dot_S2000x96_S96x96_S2000x96_1_0_0_1_n_n.lhsIdx j k 0).val = (j 0).val := by
  unfold DotDims.lhsIdx
  rw [dif_neg (show ¬(0 : Fin S2000x96.rank) ∈ dot_S2000x96_S96x96_S2000x96_1_0_0_1_n_n.lhsBatch from List.not_mem_nil),
    dif_pos (show (0 : Fin S2000x96.rank) ∈ dot_S2000x96_S96x96_S2000x96_1_0_0_1_n_n.lhsNonContracting from List.mem_singleton.mpr rfl)]
  rfl
theorem krhs1 (j : S2000x96.Idx) (k : dot_S2000x96_S96x96_S2000x96_1_0_0_1_n_n.contr.Idx) : (dot_S2000x96_S96x96_S2000x96_1_0_0_1_n_n.rhsIdx j k 1).val = (j 1).val := by
  unfold DotDims.rhsIdx
  rw [dif_neg (show ¬(1 : Fin S96x96.rank) ∈ dot_S2000x96_S96x96_S2000x96_1_0_0_1_n_n.rhsBatch from List.not_mem_nil),
    dif_pos (show (1 : Fin S96x96.rank) ∈ dot_S2000x96_S96x96_S2000x96_1_0_0_1_n_n.rhsNonContracting from List.mem_singleton.mpr rfl)]
  rfl

/-- The block's contraction: row `p` of the left operand against column `q` of the right one. -/
theorem kdot_apply (L : S2000x96.Idx → EReal) (R : S96x96.Idx → EReal) (p : Fin 2000) (q : Fin 96) :
    (∑ k : dot_S2000x96_S96x96_S2000x96_1_0_0_1_n_n.contr.Idx, L (dot_S2000x96_S96x96_S2000x96_1_0_0_1_n_n.lhsIdx (ValueIdx.ix2 p q) k) * R (dot_S2000x96_S96x96_S2000x96_1_0_0_1_n_n.rhsIdx (ValueIdx.ix2 p q) k))
      = ∑ k : Fin 96, L (ValueIdx.ix2 p k) * R (ValueIdx.ix2 k q) := by
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx (ValueIdx.ix2 p q) ((ValueIdx.contrEquiv1 dot_S2000x96_S96x96_S2000x96_1_0_0_1_n_n 96 rfl rfl).symm k) = ValueIdx.ix2 p k :=
    funext fun a => Fin.ext (by
      match a with
      | ⟨0, _⟩ => exact klhs0 _ _
      | ⟨1, _⟩ => exact (dot_S2000x96_S96x96_S2000x96_1_0_0_1_n_n.lhsIdx_val_of_single (cl := 1) rfl _ _).trans hk)
  have er : dot_S2000x96_S96x96_S2000x96_1_0_0_1_n_n.rhsIdx (ValueIdx.ix2 p q) ((ValueIdx.contrEquiv1 dot_S2000x96_S96x96_S2000x96_1_0_0_1_n_n 96 rfl rfl).symm k) = ValueIdx.ix2 k q :=
    funext fun a => Fin.ext (by
      match a with
      | ⟨0, _⟩ => exact (dot_S2000x96_S96x96_S2000x96_1_0_0_1_n_n.rhsIdx_val_of_single (cr := 0) rfl _ _).trans hk
      | ⟨1, _⟩ => exact krhs1 _ _)
  rw [el, er]

end KernelDot

section ReferenceDot
open Cert.ReferenceIdeal

theorem rlhs0 (j : S50000x96.Idx) (k : dot_S50000x96_S96x96_S50000x96_1_0_0_1_n_n.contr.Idx) : (dot_S50000x96_S96x96_S50000x96_1_0_0_1_n_n.lhsIdx j k 0).val = (j 0).val := by
  unfold DotDims.lhsIdx
  rw [dif_neg (show ¬(0 : Fin S50000x96.rank) ∈ dot_S50000x96_S96x96_S50000x96_1_0_0_1_n_n.lhsBatch from List.not_mem_nil),
    dif_pos (show (0 : Fin S50000x96.rank) ∈ dot_S50000x96_S96x96_S50000x96_1_0_0_1_n_n.lhsNonContracting from List.mem_singleton.mpr rfl)]
  rfl
theorem rrhs1 (j : S50000x96.Idx) (k : dot_S50000x96_S96x96_S50000x96_1_0_0_1_n_n.contr.Idx) : (dot_S50000x96_S96x96_S50000x96_1_0_0_1_n_n.rhsIdx j k 1).val = (j 1).val := by
  unfold DotDims.rhsIdx
  rw [dif_neg (show ¬(1 : Fin S96x96.rank) ∈ dot_S50000x96_S96x96_S50000x96_1_0_0_1_n_n.rhsBatch from List.not_mem_nil),
    dif_pos (show (1 : Fin S96x96.rank) ∈ dot_S50000x96_S96x96_S50000x96_1_0_0_1_n_n.rhsNonContracting from List.mem_singleton.mpr rfl)]
  rfl

/-- The whole array's contraction: row `i` of the left operand against column `q` of the right one. -/
theorem rdot_apply (L : S50000x96.Idx → EReal) (R : S96x96.Idx → EReal) (i : Fin 50000) (q : Fin 96) :
    (∑ k : dot_S50000x96_S96x96_S50000x96_1_0_0_1_n_n.contr.Idx, L (dot_S50000x96_S96x96_S50000x96_1_0_0_1_n_n.lhsIdx (ValueIdx.ix2 i q) k) * R (dot_S50000x96_S96x96_S50000x96_1_0_0_1_n_n.rhsIdx (ValueIdx.ix2 i q) k))
      = ∑ k : Fin 96, L (ValueIdx.ix2 i k) * R (ValueIdx.ix2 k q) := by
  rw [← Equiv.sum_comp (ValueIdx.contrEquiv1 dot_S50000x96_S96x96_S50000x96_1_0_0_1_n_n 96 rfl rfl).symm]
  refine Finset.sum_congr rfl fun k _ => ?_
  have hk := ValueIdx.contrEquiv1_symm_val dot_S50000x96_S96x96_S50000x96_1_0_0_1_n_n 96 rfl rfl k
  have el : dot_S50000x96_S96x96_S50000x96_1_0_0_1_n_n.lhsIdx (ValueIdx.ix2 i q) ((ValueIdx.contrEquiv1 dot_S50000x96_S96x96_S50000x96_1_0_0_1_n_n 96 rfl rfl).symm k) = ValueIdx.ix2 i k :=
    funext fun a => Fin.ext (by
      match a with
      | ⟨0, _⟩ => exact rlhs0 _ _
      | ⟨1, _⟩ => exact (dot_S50000x96_S96x96_S50000x96_1_0_0_1_n_n.lhsIdx_val_of_single (cl := 1) rfl _ _).trans hk)
  have er : dot_S50000x96_S96x96_S50000x96_1_0_0_1_n_n.rhsIdx (ValueIdx.ix2 i q) ((ValueIdx.contrEquiv1 dot_S50000x96_S96x96_S50000x96_1_0_0_1_n_n 96 rfl rfl).symm k) = ValueIdx.ix2 k q :=
    funext fun a => Fin.ext (by
      match a with
      | ⟨0, _⟩ => exact (dot_S50000x96_S96x96_S50000x96_1_0_0_1_n_n.rhsIdx_val_of_single (cr := 0) rfl _ _).trans hk
      | ⟨1, _⟩ => exact rrhs1 _ _)
  rw [el, er]

end ReferenceDot

/-! ## The body's value at an index of its block, and the reference's at an index of the array -/

section Payload
open Cert.KernelIdeal Cert.KernelIdeal.Gen

/-- The bias row spread over a block reads the row's entry at the column. -/
theorem kbias_apply (v : S1x96.Idx → EReal) (p : Fin 2000) (k : Fin 96) :
    broadcastTo S2000x96 v broadcasts_S1x96_S2000x96 (ValueIdx.ix2 p k) = v (ValueIdx.ix2 0 k) := by
  refine broadcastTo_apply v broadcasts_S1x96_S2000x96 _ _ fun a => ?_
  match a with
  | ⟨0, _⟩ => rfl
  | ⟨1, _⟩ => rfl

/-- The body's payload with the identity casts removed: the product of the clamped biased block with the weights. -/
theorem pay_eq (x0 : Vec Ideal S2000x96 .f32) (x1 : Vec Ideal S1x96 .f32) (x2 : Vec Ideal S96x96 .bf16) :
    k1_pay1 x0 x1 x2 = FloatOps.matmul (F := Ideal) (φ₁ := .bf16) (φ₂ := .bf16) dot_S2000x96_S96x96_S2000x96_1_0_0_1_n_n none
      (fun i => max (x0 i + broadcastTo S2000x96 x1 broadcasts_S1x96_S2000x96 i) (Ideal.ofBits .f32 0x00000000#32)) x2
      (constant S2000x96 .f32 0x00000000#32) := by
  unfold k1_pay1
  simp only [shapeCast_self]
  rfl

/-- Entry (p, q) of the body's payload: the sum over k of max (x0 (p, k) + x1 (0, k)) 0 · x2 (k, q). -/
theorem pay_apply (x0 : Vec Ideal S2000x96 .f32) (x1 : Vec Ideal S1x96 .f32) (x2 : Vec Ideal S96x96 .bf16) (p : Fin 2000) (q : Fin 96) :
    k1_pay1 x0 x1 x2 (ValueIdx.ix2 p q)
      = ∑ k : Fin 96, max (x0 (ValueIdx.ix2 p k) + x1 (ValueIdx.ix2 0 k)) (Ideal.ofBits .f32 0x00000000#32) * x2 (ValueIdx.ix2 k q) := by
  refine (congrFun (pay_eq x0 x1 x2) _).trans ?_
  refine (Ideal.matmul_constant_zero_apply (φ₁ := .bf16) (φ₂ := .bf16) _ none _ _ _).trans ?_
  refine (kdot_apply (fun i => max (x0 i + broadcastTo S2000x96 x1 broadcasts_S1x96_S2000x96 i) (Ideal.ofBits .f32 0x00000000#32)) x2 p q).trans ?_
  refine Finset.sum_congr rfl fun k _ => ?_
  show max (x0 (ValueIdx.ix2 p k) + broadcastTo S2000x96 x1 broadcasts_S1x96_S2000x96 (ValueIdx.ix2 p k)) _ * _ = _
  rw [kbias_apply]

end Payload

section Reference
open Cert.ReferenceIdeal Cert.ReferenceIdeal.Facts₀

/-- The bias row spread over the array reads the row's entry at the column. -/
theorem rbias_apply (v : S1x96.Idx → EReal) (i : Fin 50000) (k : Fin 96) :
    broadcastInDim S50000x96 ![0, 1] bcast_S1x96_S50000x96_0_1 v (ValueIdx.ix2 i k) = v (ValueIdx.ix2 0 k) := by
  refine broadcastInDim_apply _ bcast_S1x96_S50000x96_0_1 v _ _ fun a => ?_
  match a with
  | ⟨0, _⟩ => rfl
  | ⟨1, _⟩ => rfl

/-- Entry (i, k) of the clamped biased array. -/
theorem reluBias_apply (A : FVec Ideal S50000x96 .f32) (b : FVec Ideal S1x96 .f32) (i : Fin 50000) (k : Fin 96) :
    reluBias A b (ValueIdx.ix2 i k) = max (A (ValueIdx.ix2 i k) + b (ValueIdx.ix2 0 k)) (Ideal.ofBits .f32 0x00000000#32) := by
  show max (A (ValueIdx.ix2 i k) + broadcastInDim S50000x96 ![0, 1] bcast_S1x96_S50000x96_0_1 b (ValueIdx.ix2 i k)) _ = _
  rw [rbias_apply]
  rfl

/-- The array the region leaves: the reference's product of the clamped biased array with the weights. -/
abbrev G (A : FVec Ideal S50000x96 .f32) (b : FVec Ideal S1x96 .f32) (W : FVec Ideal S96x96 .f32) : S50000x96.Idx → EReal :=
  Host.dotGeneral (F := Ideal) (φ₁ := .f32) (φ₂ := .f32) dot_S50000x96_S96x96_S50000x96_1_0_0_1_n_n none (reluBias A b) W

/-- Entry (i, q) of it: the sum over k of max (A (i, k) + b (0, k)) 0 · W (k, q). -/
theorem G_apply (A : FVec Ideal S50000x96 .f32) (b : FVec Ideal S1x96 .f32) (W : FVec Ideal S96x96 .f32) (i : Fin 50000) (q : Fin 96) :
    G A b W (ValueIdx.ix2 i q)
      = ∑ k : Fin 96, max (A (ValueIdx.ix2 i k) + b (ValueIdx.ix2 0 k)) (Ideal.ofBits .f32 0x00000000#32) * W (ValueIdx.ix2 k q) := by
  unfold G
  simp only [Host.dotGeneral]
  refine (Ideal.dotGeneral_apply _ none _ _ _ _).trans ?_
  refine (rdot_apply (reluBias A b) W i q).trans ?_
  refine Finset.sum_congr rfl fun k _ => ?_
  rw [reluBias_apply]

end Reference

/-! ## From the blocks to the array -/

section Blocks
open Cert.KernelIdeal Cert.KernelIdeal.Gen

/-- The zero offsets, as a constant function. -/
theorem hz : (![0, 0] : Fin 2 → Nat) = fun _ => 0 := funext fun a => by fin_cases a <;> rfl

/-- The block indices at every grid point `t`: the row operand's block and the output's block are block `t` of the
    rows; the bias row's and the weights' blocks are the whole arrays. -/
theorem idx_facts : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry (p, k) of the row operand's block at point `t` is entry (2000 t + p, k) of the array. -/
theorem blk0_apply (c : Dev nD) (t : Fin cfg1.N) (p : Fin 2000) (k : Fin 96) (i : Fin 50000) (hi : i.val = 2000 * t.val + p.val) :
    (iblk1 V c 0 t : Vec Ideal S2000x96 .f32) (ValueIdx.ix2 p k) = V c main_v51 (ValueIdx.ix2 i k) := by
  obtain ⟨e0, e1, -⟩ := idx_facts t
  show V c main_v51 (((cfg1.win 0).blk t).view.emb (ValueIdx.ix2 p k)) = _
  refine congrArg (V c main_v51) (funext fun a => Fin.ext ?_)
  match a with
  | ⟨0, _⟩ => show win1_0.index t (0 : Fin 2) * 2000 + 1 * p.val = i.val; omega
  | ⟨1, _⟩ => show win1_0.index t (1 : Fin 2) * 96 + 1 * k.val = k.val; omega

/-- The bias row's block is the row. -/
theorem blk1_apply (c : Dev nD) (t : Fin cfg1.N) (k : Fin 96) :
    (iblk1 V c 1 t : Vec Ideal S1x96 .f32) (ValueIdx.ix2 0 k) = V c main_v34 (ValueIdx.ix2 0 k) := by
  obtain ⟨-, -, e2, e3, -⟩ := idx_facts t
  show V c main_v34 (((cfg1.win 1).blk t).view.emb (ValueIdx.ix2 0 k)) = _
  refine congrArg (V c main_v34) (funext fun a => Fin.ext ?_)
  match a with
  | ⟨0, _⟩ => show win1_1.index t (0 : Fin 2) * 1 + 1 * 0 = 0; omega
  | ⟨1, _⟩ => show win1_1.index t (1 : Fin 2) * 96 + 1 * k.val = k.val; omega

/-- The weights' block is the weights. -/
theorem blk2_apply (c : Dev nD) (t : Fin cfg1.N) (k q : Fin 96) :
    (iblk1 V c 2 t : Vec Ideal S96x96 .bf16) (ValueIdx.ix2 k q) = V c main_v32 (ValueIdx.ix2 k q) := by
  obtain ⟨-, -, -, -, e4, e5, -⟩ := idx_facts t
  show V c main_v32 (((cfg1.win 2).blk t).view.emb (ValueIdx.ix2 k q)) = _
  refine congrArg (V c main_v32) (funext fun a => Fin.ext ?_)
  match a with
  | ⟨0, _⟩ => show win1_2.index t (0 : Fin 2) * 96 + 1 * k.val = k.val; omega
  | ⟨1, _⟩ => show win1_2.index t (1 : Fin 2) * 96 + 1 * q.val = q.val; omega

/-- What point `t` writes back is block `t` of `G` of the arrays as the region finds them. -/
theorem flushed_eq (c : Dev nD) (t : Fin cfg1.N) :
    (dat1 V c).flushed 3 t = ((cfg1.win 3).blk t).view.read (Elt Ideal) (G (V c main_v51) (V c main_v34) (V c main_v32)) := by
  show (cfg1.win 3).cut (grid1.coords t) ((dat1 V c).after 3 t) = _
  rw [after1_3]
  unfold out1_3
  rw [View.canon_unit_zero hz]
  simp only [View.ld_unit_zero (S := S2000x96) hz, View.ld_unit_zero (S := S1x96) hz, View.ld_unit_zero (S := S96x96) hz]
  refine funext fun (y : S2000x96.Idx) => ?_
  obtain ⟨p, q, rfl⟩ : ∃ (p : Fin 2000) (q : Fin 96), y = ValueIdx.ix2 p q := ⟨y 0, y 1, ValueIdx.eq_ix2 y⟩
  have ht : t.val < 25 := lt_of_lt_of_eq t.isLt N_1
  obtain ⟨-, -, -, -, -, -, e6, e7⟩ := idx_facts t
  have hemb : ((cfg1.win 3).blk t).view.emb (ValueIdx.ix2 p q)
      = ValueIdx.ix2 (⟨2000 * t.val + p.val, by have := p.isLt; omega⟩ : Fin 50000) q := by
    funext a; apply Fin.ext
    match a with
    | ⟨0, _⟩ => show win1_3.index t (0 : Fin 2) * 2000 + 1 * p.val = 2000 * t.val + p.val; omega
    | ⟨1, _⟩ => show win1_3.index t (1 : Fin 2) * 96 + 1 * q.val = q.val; omega
  show k1_pay1 (iblk1 V c 0 t) (iblk1 V c 1 t) (iblk1 V c 2 t) (ValueIdx.ix2 p q)
    = G (V c main_v51) (V c main_v34) (V c main_v32) (((cfg1.win 3).blk t).view.emb (ValueIdx.ix2 p q))
  refine (pay_apply _ _ _ p q).trans ?_
  refine Eq.trans ?_ (congrArg (G (V c main_v51) (V c main_v34) (V c main_v32)) hemb).symm
  refine Eq.trans ?_ (G_apply _ _ _ _ q).symm
  refine Finset.sum_congr rfl fun k _ => ?_
  rw [blk0_apply V c t p k ⟨2000 * t.val + p.val, by have := p.isLt; omega⟩ rfl, blk1_apply V c t k, blk2_apply V c t k q]

/-- An index of the array is in point `t`'s block iff each coordinate is in the block's range on its axis. -/
theorem mem_blk (t : Fin cfg1.N) (i : S50000x96.Idx) :
    i ∈ ((cfg1.win 3).blk t).view.set ↔ ∀ a : Fin 2, win1_3.index t a * S2000x96.size a ≤ (i a).val ∧ (i a).val < win1_3.index t a * S2000x96.size a + S2000x96.size a := by
  show i ∈ ((View.whole main_v52).slice (win1_3.rect t)).set ↔ _
  rw [View.set_slice_whole, Rect.mem_set_unit]
  exact Iff.rfl

/-- Every row is in the block of the point numbered by its quotient by the block height. -/
theorem cover (i : S50000x96.Idx) : ∃ t : Fin cfg1.N, (cfg1.win 3).flush t = true ∧ i ∈ ((cfg1.win 3).blk t).view.set := by
  have hN : grid1.N = 25 := N_1
  have hi0 : (i 0).val < 50000 := (i 0).isLt
  have hi1 : (i 1).val < 96 := (i 1).isLt
  have ht : (i 0).val / 2000 < grid1.N := by omega
  obtain ⟨-, -, -, -, -, -, e6, e7⟩ := idx_facts ⟨(i 0).val / 2000, ht⟩
  refine ⟨⟨(i 0).val / 2000, ht⟩, flush1_3 _, ?_⟩
  rw [mem_blk]
  intro a
  have e6' : win1_3.index ⟨(i 0).val / 2000, ht⟩ (0 : Fin 2) = (i 0).val / 2000 := e6
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    omega
  | ⟨1, _⟩ =>
    show win1_3.index ⟨(i 0).val / 2000, ht⟩ (1 : Fin 2) * 96 ≤ (i 1).val ∧ (i 1).val < win1_3.index ⟨(i 0).val / 2000, ht⟩ (1 : Fin 2) * 96 + 96
    omega

end Blocks

end Region1

open Cert.KernelIdeal Cert.KernelIdeal.Gen in
/-- The array region 1 leaves: the reference's product of the clamped biased aggregate with the second layer's weights. -/
theorem region1_final (V : (c : Dev nD) → (b : Ref sig .tc) → Buf (Elt Ideal) ((c : Thread nD τ).loc b)) (c : Dev nD) :
    ((dat1 (F := Ideal) V c).arrAt 3 cfg1.N : Cert.ReferenceIdeal.S50000x96.Idx → EReal)
      = Host.dotGeneral (F := Ideal) (φ₁ := .f32) (φ₂ := .f32) Cert.ReferenceIdeal.dot_S50000x96_S96x96_S50000x96_1_0_0_1_n_n none
          (reluBias (V c main_v51) (V c main_v34))
          (V c main_v32 : FVec Ideal Cert.ReferenceIdeal.S96x96 .f32) :=
  (dat1 V c).arrAt_eq_of_cover 3 (Region1.G (V c main_v51) (V c main_v34) (V c main_v32))
    (fun t _ => Region1.flushed_eq V c t) Region1.cover

end Cert.GCN

end
-- ==== Proof.Region2.lean ====
/-
  Region 2 of the kernel's program: bias, clamp at zero, the classifier's logits and the row-wise log-softmax.

  The region runs over 25 grid points; point t holds rows 2000·t … 2000·t + 1999 of the 50000 × 96 feature array and of
  the 50000 × 2 output, and the whole bias row, head weights and head bias. At a row with features x (after adding the
  bias row and clamping below at zero) the body computes the two logits ℓ₀, ℓ₁ = x · Wc + bc, their maximum m, and writes
  (ℓ_q − m) − log (exp (ℓ₀ − m) + exp (ℓ₁ − m)). The reference's head computes the same over the whole arrays: its row
  maximum folds `max` from −∞ over the two lanes, its row sum adds the two lanes to zero.

  Both sides are read at an index `(row, lane)` as `lsm2` of the row's two `logit`s; a block's row p at point t is the
  array's row 2000·t + p; the blocks of the 25 points cover the output, so the array the region leaves is that function
  of the region's input arrays.
-/
import proofs.«134879_j22325240005451_2_alg».proof.Proof.Spec
import proofs.«134879_j22325240005451_2_alg».proof.Proof.KSpec
import proofs.«134879_j22325240005451_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GCN

open Idealize.ShloMosaic Idealize.ShloMosaic.TcCoe Idealize.SL.Sem
open Idealize.ShloMosaic.Pipeline (Dat)

namespace Region2

open Cert.KernelIdeal Cert.KernelIdeal.Gen in
/-- Where each window's block sits at grid point `t`, decided over the 25 points: the feature and output windows at
    block row `t`, the three small windows at their one block. -/
theorem block_indices_decided : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

end Region2

variable [Cert.KernelIdeal.Facts] [Cert.ReferenceIdeal.Facts]

namespace Region2

open Idealize.ShloMosaic.ValueIdx

/-- One logit of a row: the clamped, biased features of the row against one column of the head's weights, plus the
    head's bias for that column. -/
def logit {n : ℕ} (A : (⟨2, ![n, 96]⟩ : Shape).Idx → EReal) (b : (⟨2, ![1, 96]⟩ : Shape).Idx → EReal)
    (W : (⟨2, ![96, 2]⟩ : Shape).Idx → EReal) (bc : (⟨2, ![1, 2]⟩ : Shape).Idx → EReal) (r : Fin n) (q : Fin 2) : EReal :=
  (∑ k : Fin 96, max (A (ix2 r k) + b (ix2 (0 : Fin 1) k)) 0 * W (ix2 k q)) + bc (ix2 (0 : Fin 1) q)

/-- The log-softmax of a row of two entries `a`, `b`, at the entry `x` of it. -/
def lsm2 (a b x : EReal) : EReal :=
  (x - max a b) - Ideal.log (Ideal.exp (a - max a b) + Ideal.exp (b - max a b))

section Kernel
open Cert.KernelIdeal Cert.KernelIdeal.Facts₀ Cert.KernelIdeal.Facts

/-- The kernel body's logits block. -/
def kLogits (x0 : Vec Ideal S2000x96 .f32) (x1 : Vec Ideal S1x96 .f32) (x2 : Vec Ideal S96x2 .bf16) (x3 : Vec Ideal S1x2 .f32) :
    FVec Ideal S2000x2 .f32 :=
  addf (matmul (φ₁ := .bf16) (φ₂ := .bf16) dot_S2000x96_S96x2_S2000x2_1_0_0_1_n_n none
      (truncf .bf16 (maximumf (addf (shapeCast S2000x96 x0 shapeCasts_S2000x96_S2000x96)
          (broadcastTo S2000x96 (shapeCast S1x96 x1 shapeCasts_S1x96_S1x96) broadcasts_S1x96_S2000x96))
        (broadcast S2000x96 (Scalar.ofBits .f32 0x00000000#32)) : FVec Ideal S2000x96 .f32) bitsLt_bf16_f32)
      (shapeCast S96x2 x2 shapeCasts_S96x2_S96x2 : FVec Ideal S96x2 .bf16) (constant S2000x2 .f32 0x00000000#32))
    (broadcastTo S2000x2 (shapeCast S1x2 x3 shapeCasts_S1x2_S1x2) broadcasts_S1x2_S2000x2)

/-- The kernel body's row maximum, spread back over the row. -/
def kRowMax (v : FVec Ideal S2000x2 .f32) : FVec Ideal S2000x2 .f32 :=
  broadcastTo S2000x2 (shapeCast S2000x1 (multiReduction .maximumf [1] S2000 v 0xFF800000#32 reduces_S2000x2_S2000 (.inl rfl) rfl)
    shapeCasts_S2000_S2000x1) broadcasts_S2000x1_S2000x2

/-- The kernel body's log-softmax of a logits block. -/
def kSoftmax (v : FVec Ideal S2000x2 .f32) : FVec Ideal S2000x2 .f32 :=
  subf (subf v (kRowMax v))
    (broadcastTo S2000x2 (log (shapeCast S2000x1
      (multiReduction .add [1] S2000 (exp (subf v (kRowMax v))) 0x00000000#32 reduces_S2000x2_S2000 (.inl rfl) rfl)
      shapeCasts_S2000_S2000x1)) broadcasts_S2000x1_S2000x2)

theorem k2_pay1_eq (x0 : Vec Ideal S2000x96 .f32) (x1 : Vec Ideal S1x96 .f32) (x2 : Vec Ideal S96x2 .bf16) (x3 : Vec Ideal S1x2 .f32) :
    Gen.k2_pay1 x0 x1 x2 x3 = kSoftmax (kLogits x0 x1 x2 x3) := rfl

end Kernel

/-! ## Column forms of the layout operations -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the lane axis of an `[n, 2]` array, the source index over row `r` with lane `k` put back is `(r, k)`. -/
theorem lift_lane {n : ℕ} (h : (⟨2, ![n, 2]⟩ : Shape).Reduces [1] (⟨1, ![n]⟩ : Shape)) (r : Fin n)
    (k : Fin ((⟨2, ![n, 2]⟩ : Shape).size 1)) : h.lift (ix1 r) k = ix2 r (⟨k.val, k.isLt⟩ : Fin 2) := by
  funext c; apply Fin.ext
  fin_cases c <;> rfl

/-- A maximum folded from `⊥` over the two lanes is the maximum of the two. -/
theorem fold_max_two (f : Fin 2 → EReal) : (Finset.univ : Finset (Fin 2)).fold max ⊥ f = max (f 0) (f 1) := by
  rw [show (Finset.univ : Finset (Fin 2)) = insert 0 {1} from by decide, Finset.fold_insert (by decide), Finset.fold_singleton,
    max_bot_right]

theorem ofBits_neg_inf_f32 : Ideal.ofBits .f32 0xFF800000#32 = ⊥ := by simp [Ideal.ofBits, Ideal.ieee]

section Kernel
open Cert.KernelIdeal Cert.KernelIdeal.Facts₀ Cert.KernelIdeal.Facts

theorem kdot_lhs0 (i : S2000x2.Idx) (c : dot_S2000x96_S96x2_S2000x2_1_0_0_1_n_n.contr.Idx) : (dot_S2000x96_S96x2_S2000x2_1_0_0_1_n_n.lhsIdx i c 0).val = (i 0).val := by
  unfold DotDims.lhsIdx
  rw [dif_neg (show ¬(0 : Fin S2000x96.rank) ∈ dot_S2000x96_S96x2_S2000x2_1_0_0_1_n_n.lhsBatch from List.not_mem_nil),
    dif_pos (show (0 : Fin S2000x96.rank) ∈ dot_S2000x96_S96x2_S2000x2_1_0_0_1_n_n.lhsNonContracting from List.mem_singleton.mpr rfl)]
  rfl
theorem kdot_lhs1 (i : S2000x2.Idx) (c : dot_S2000x96_S96x2_S2000x2_1_0_0_1_n_n.contr.Idx) : (dot_S2000x96_S96x2_S2000x2_1_0_0_1_n_n.lhsIdx i c 1).val = (c ⟨0, Nat.one_pos⟩).val :=
  dot_S2000x96_S96x2_S2000x2_1_0_0_1_n_n.lhsIdx_val_of_single rfl i c
theorem kdot_rhs0 (i : S2000x2.Idx) (c : dot_S2000x96_S96x2_S2000x2_1_0_0_1_n_n.contr.Idx) : (dot_S2000x96_S96x2_S2000x2_1_0_0_1_n_n.rhsIdx i c 0).val = (c ⟨0, Nat.one_pos⟩).val :=
  dot_S2000x96_S96x2_S2000x2_1_0_0_1_n_n.rhsIdx_val_of_single rfl i c
theorem kdot_rhs1 (i : S2000x2.Idx) (c : dot_S2000x96_S96x2_S2000x2_1_0_0_1_n_n.contr.Idx) : (dot_S2000x96_S96x2_S2000x2_1_0_0_1_n_n.rhsIdx i c 1).val = (i 1).val := by
  unfold DotDims.rhsIdx
  rw [dif_neg (show ¬(1 : Fin S96x2.rank) ∈ dot_S2000x96_S96x2_S2000x2_1_0_0_1_n_n.rhsBatch from List.not_mem_nil),
    dif_pos (show (1 : Fin S96x2.rank) ∈ dot_S2000x96_S96x2_S2000x2_1_0_0_1_n_n.rhsNonContracting from List.mem_singleton.mpr rfl)]
  rfl

/-- The matrix product at `(p, q)`: the sum over the 96 contracted positions. -/
theorem kdot_apply (L : S2000x96.Idx → EReal) (R : S96x2.Idx → EReal) (p : Fin 2000) (q : Fin 2) :
    (∑ c : dot_S2000x96_S96x2_S2000x2_1_0_0_1_n_n.contr.Idx, L (dot_S2000x96_S96x2_S2000x2_1_0_0_1_n_n.lhsIdx (ix2 p q) c) * R (dot_S2000x96_S96x2_S2000x2_1_0_0_1_n_n.rhsIdx (ix2 p q) c))
      = ∑ k : Fin 96, L (ix2 p k) * R (ix2 k q) := by
  rw [← Equiv.sum_comp (ValueIdx.contrEquiv1 dot_S2000x96_S96x2_S2000x2_1_0_0_1_n_n 96 rfl rfl).symm]
  refine Finset.sum_congr rfl fun k _ => ?_
  have hk := ValueIdx.contrEquiv1_symm_val dot_S2000x96_S96x2_S2000x2_1_0_0_1_n_n 96 rfl rfl k
  have el : dot_S2000x96_S96x2_S2000x2_1_0_0_1_n_n.lhsIdx (ix2 p q) ((ValueIdx.contrEquiv1 dot_S2000x96_S96x2_S2000x2_1_0_0_1_n_n 96 rfl rfl).symm k) = ix2 p k := funext fun a => Fin.ext (by
    match a with
    | ⟨0, _⟩ => exact kdot_lhs0 _ _
    | ⟨1, _⟩ => exact (kdot_lhs1 _ _).trans hk)
  have er : dot_S2000x96_S96x2_S2000x2_1_0_0_1_n_n.rhsIdx (ix2 p q) ((ValueIdx.contrEquiv1 dot_S2000x96_S96x2_S2000x2_1_0_0_1_n_n 96 rfl rfl).symm k) = ix2 k q := funext fun a => Fin.ext (by
    match a with
    | ⟨0, _⟩ => exact (kdot_rhs0 _ _).trans hk
    | ⟨1, _⟩ => exact kdot_rhs1 _ _)
  rw [el, er]

/-- The kernel's clamped, biased features at `(p, k)`. -/
theorem kFeat_apply (x0 : Vec Ideal S2000x96 .f32) (x1 : Vec Ideal S1x96 .f32) (p : Fin 2000) (k : Fin 96) :
    (truncf .bf16 (maximumf (addf (shapeCast S2000x96 x0 shapeCasts_S2000x96_S2000x96)
          (broadcastTo S2000x96 (shapeCast S1x96 x1 shapeCasts_S1x96_S1x96) broadcasts_S1x96_S2000x96))
        (broadcast S2000x96 (Scalar.ofBits .f32 0x00000000#32)) : FVec Ideal S2000x96 .f32) bitsLt_bf16_f32
      : FVec Ideal S2000x96 .bf16) (ix2 p k) = max (x0 (ix2 p k) + x1 (ix2 (0 : Fin 1) k)) 0 := by
  show max (shapeCast S2000x96 x0 shapeCasts_S2000x96_S2000x96 (ix2 p k)
      + broadcastTo S2000x96 (shapeCast S1x96 x1 shapeCasts_S1x96_S1x96) broadcasts_S1x96_S2000x96 (ix2 p k))
    (Ideal.ofBits .f32 0x00000000#32) = _
  rw [shapeCast_self, shapeCast_self, Ideal.ofBits_zero_f32]
  exact congrArg (fun z => max (x0 (ix2 p k) + z) 0) (broadcastTo_1b_ab_apply x1 broadcasts_S1x96_S2000x96 p k)

/-- The kernel's logits block at `(p, q)`. -/
theorem kLogits_apply (x0 : Vec Ideal S2000x96 .f32) (x1 : Vec Ideal S1x96 .f32) (x2 : Vec Ideal S96x2 .bf16) (x3 : Vec Ideal S1x2 .f32)
    (p : Fin 2000) (q : Fin 2) : kLogits x0 x1 x2 x3 (ix2 p q) = logit x0 x1 x2 x3 p q := by
  unfold kLogits logit
  refine congrArg₂ (· + ·) ?_ ?_
  · refine (Ideal.matmul_constant_zero_apply _ none _ _ (ix2 p q)).trans ?_
    refine (kdot_apply _ _ p q).trans ?_
    refine Finset.sum_congr rfl fun k _ => ?_
    refine congrArg₂ (· * ·) (kFeat_apply x0 x1 p k) ?_
    rw [shapeCast_self]
  · rw [shapeCast_self]
    exact broadcastTo_1b_ab_apply x3 broadcasts_S1x2_S2000x2 p q

end Kernel

section Kernel
open Cert.KernelIdeal Cert.KernelIdeal.Facts₀ Cert.KernelIdeal.Facts

/-- The kernel's row maximum at `(p, q)`: the larger of the row's two entries. -/
theorem kRowMax_apply (v : FVec Ideal S2000x2 .f32) (p : Fin 2000) (q : Fin 2) :
    kRowMax v (ix2 p q) = max (v (ix2 p 0)) (v (ix2 p 1)) := by
  unfold kRowMax
  refine (broadcastTo_a1_ab_apply _ broadcasts_S2000x1_S2000x2 p q).trans ?_
  refine (shapeCast_a_a1_apply _ shapeCasts_S2000_S2000x1 p 0).trans ?_
  refine (Ideal.multiReduction_maximumf_single v 0xFF800000#32 reduces_S2000x2_S2000 (.inl rfl) rfl (ix1 p)).trans ?_
  refine Eq.trans (?_ : _ = (Finset.univ : Finset (Fin 2)).fold max ⊥ (fun k : Fin 2 => v (ix2 p k))) (fold_max_two _)
  exact congrArg₂ (fun b f => Finset.fold max b f (Finset.univ : Finset (Fin 2))) ofBits_neg_inf_f32
    (funext fun k => congrArg v (lift_lane reduces_S2000x2_S2000 p k))

/-- The logarithm of the kernel's lane sum, spread back over the row, at `(p, q)`. -/
theorem kLogSum_apply (w : FVec Ideal S2000x2 .f32) (p : Fin 2000) (q : Fin 2) :
    broadcastTo S2000x2 (log (shapeCast S2000x1
        (multiReduction .add [1] S2000 w 0x00000000#32 reduces_S2000x2_S2000 (.inl rfl) rfl)
        shapeCasts_S2000_S2000x1)) broadcasts_S2000x1_S2000x2 (ix2 p q)
      = Ideal.log (w (ix2 p 0) + w (ix2 p 1)) := by
  refine (broadcastTo_a1_ab_apply _ broadcasts_S2000x1_S2000x2 p q).trans ?_
  show Ideal.log (shapeCast S2000x1 (multiReduction .add [1] S2000 w 0x00000000#32 reduces_S2000x2_S2000 (.inl rfl) rfl)
    shapeCasts_S2000_S2000x1 (ix2 p (0 : Fin 1))) = _
  refine congrArg Ideal.log ?_
  refine (shapeCast_a_a1_apply _ shapeCasts_S2000_S2000x1 p 0).trans ?_
  refine (Ideal.multiReduction_add_single w 0x00000000#32 reduces_S2000x2_S2000 (.inl rfl) rfl (ix1 p)).trans ?_
  refine Eq.trans (?_ : _ = ∑ k : Fin 2, w (ix2 p k)) (Fin.sum_univ_two _)
  exact Finset.sum_congr rfl fun k _ => congrArg w (lift_lane reduces_S2000x2_S2000 p k)

/-- The kernel's log-softmax of a logits block at `(p, q)`. -/
theorem kSoftmax_apply (v : FVec Ideal S2000x2 .f32) (p : Fin 2000) (q : Fin 2) :
    kSoftmax v (ix2 p q) = lsm2 (v (ix2 p 0)) (v (ix2 p 1)) (v (ix2 p q)) := by
  unfold kSoftmax lsm2
  refine congrArg₂ (· - ·) ?_ ?_
  · exact congrArg (fun z => v (ix2 p q) - z) (kRowMax_apply v p q)
  · refine (kLogSum_apply _ p q).trans ?_
    show Ideal.log (Ideal.exp (v (ix2 p 0) - kRowMax v (ix2 p 0)) + Ideal.exp (v (ix2 p 1) - kRowMax v (ix2 p 1))) = _
    rw [kRowMax_apply, kRowMax_apply]

/-- The kernel body's result block at `(p, q)`: the log-softmax of row `p`'s two logits. -/
theorem k2_pay1_apply (x0 : Vec Ideal S2000x96 .f32) (x1 : Vec Ideal S1x96 .f32) (x2 : Vec Ideal S96x2 .bf16) (x3 : Vec Ideal S1x2 .f32)
    (p : Fin 2000) (q : Fin 2) :
    Gen.k2_pay1 x0 x1 x2 x3 (ix2 p q)
      = lsm2 (logit x0 x1 x2 x3 p 0) (logit x0 x1 x2 x3 p 1) (logit x0 x1 x2 x3 p q) := by
  rw [k2_pay1_eq, kSoftmax_apply, kLogits_apply, kLogits_apply, kLogits_apply]

end Kernel

/-! ## The reference's broadcasts read at an index -/

/-- A scalar broadcast to any shape reads the scalar everywhere. -/
theorem bid_scalar {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- One row `[1, b]` broadcast over `[a, b]` reads, at `(p, c)`, the row at `c`. -/
theorem bid_1b_ab {α : Type} {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- One column `[a, 1]` broadcast over `[a, b]` reads, at `(p, c)`, the column at `p`. -/
theorem bid_a1_ab {α : Type} {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast to the column `[a, 1]` reads, at `(p, u)`, the array at `p`. -/
theorem bid_a_a1 {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's logarithm and exponential at an index are the extended reals' functions of the element. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

section Reference
open Cert.ReferenceIdeal Cert.ReferenceIdeal.Facts₀ Cert.ReferenceIdeal.Facts

theorem rdot_lhs0 (i : S50000x2.Idx) (c : dot_S50000x96_S96x2_S50000x2_1_0_0_1_n_n.contr.Idx) : (dot_S50000x96_S96x2_S50000x2_1_0_0_1_n_n.lhsIdx i c 0).val = (i 0).val := by
  unfold DotDims.lhsIdx
  rw [dif_neg (show ¬(0 : Fin S50000x96.rank) ∈ dot_S50000x96_S96x2_S50000x2_1_0_0_1_n_n.lhsBatch from List.not_mem_nil),
    dif_pos (show (0 : Fin S50000x96.rank) ∈ dot_S50000x96_S96x2_S50000x2_1_0_0_1_n_n.lhsNonContracting from List.mem_singleton.mpr rfl)]
  rfl
theorem rdot_lhs1 (i : S50000x2.Idx) (c : dot_S50000x96_S96x2_S50000x2_1_0_0_1_n_n.contr.Idx) : (dot_S50000x96_S96x2_S50000x2_1_0_0_1_n_n.lhsIdx i c 1).val = (c ⟨0, Nat.one_pos⟩).val :=
  dot_S50000x96_S96x2_S50000x2_1_0_0_1_n_n.lhsIdx_val_of_single rfl i c
theorem rdot_rhs0 (i : S50000x2.Idx) (c : dot_S50000x96_S96x2_S50000x2_1_0_0_1_n_n.contr.Idx) : (dot_S50000x96_S96x2_S50000x2_1_0_0_1_n_n.rhsIdx i c 0).val = (c ⟨0, Nat.one_pos⟩).val :=
  dot_S50000x96_S96x2_S50000x2_1_0_0_1_n_n.rhsIdx_val_of_single rfl i c
theorem rdot_rhs1 (i : S50000x2.Idx) (c : dot_S50000x96_S96x2_S50000x2_1_0_0_1_n_n.contr.Idx) : (dot_S50000x96_S96x2_S50000x2_1_0_0_1_n_n.rhsIdx i c 1).val = (i 1).val := by
  unfold DotDims.rhsIdx
  rw [dif_neg (show ¬(1 : Fin S96x2.rank) ∈ dot_S50000x96_S96x2_S50000x2_1_0_0_1_n_n.rhsBatch from List.not_mem_nil),
    dif_pos (show (1 : Fin S96x2.rank) ∈ dot_S50000x96_S96x2_S50000x2_1_0_0_1_n_n.rhsNonContracting from List.mem_singleton.mpr rfl)]
  rfl

/-- The matrix product at `(p, q)`: the sum over the 96 contracted positions. -/
theorem rdot_apply (L : S50000x96.Idx → EReal) (R : S96x2.Idx → EReal) (p : Fin 50000) (q : Fin 2) :
    (∑ c : dot_S50000x96_S96x2_S50000x2_1_0_0_1_n_n.contr.Idx, L (dot_S50000x96_S96x2_S50000x2_1_0_0_1_n_n.lhsIdx (ix2 p q) c) * R (dot_S50000x96_S96x2_S50000x2_1_0_0_1_n_n.rhsIdx (ix2 p q) c))
      = ∑ k : Fin 96, L (ix2 p k) * R (ix2 k q) := by
  rw [← Equiv.sum_comp (ValueIdx.contrEquiv1 dot_S50000x96_S96x2_S50000x2_1_0_0_1_n_n 96 rfl rfl).symm]
  refine Finset.sum_congr rfl fun k _ => ?_
  have hk := ValueIdx.contrEquiv1_symm_val dot_S50000x96_S96x2_S50000x2_1_0_0_1_n_n 96 rfl rfl k
  have el : dot_S50000x96_S96x2_S50000x2_1_0_0_1_n_n.lhsIdx (ix2 p q) ((ValueIdx.contrEquiv1 dot_S50000x96_S96x2_S50000x2_1_0_0_1_n_n 96 rfl rfl).symm k) = ix2 p k := funext fun a => Fin.ext (by
    match a with
    | ⟨0, _⟩ => exact rdot_lhs0 _ _
    | ⟨1, _⟩ => exact (rdot_lhs1 _ _).trans hk)
  have er : dot_S50000x96_S96x2_S50000x2_1_0_0_1_n_n.rhsIdx (ix2 p q) ((ValueIdx.contrEquiv1 dot_S50000x96_S96x2_S50000x2_1_0_0_1_n_n 96 rfl rfl).symm k) = ix2 k q := funext fun a => Fin.ext (by
    match a with
    | ⟨0, _⟩ => exact (rdot_rhs0 _ _).trans hk
    | ⟨1, _⟩ => exact rdot_rhs1 _ _)
  rw [el, er]

/-- The reference's clamped, biased features at `(r, k)`. -/
theorem rFeat_apply (A : FVec Ideal S50000x96 .f32) (b : FVec Ideal S1x96 .f32) (r : Fin 50000) (k : Fin 96) :
    reluBias A b (ix2 r k) = max (A (ix2 r k) + b (ix2 (0 : Fin 1) k)) 0 := by
  unfold reluBias
  show max (A (ix2 r k) + broadcastInDim S50000x96 ![0, 1] bcast_S1x96_S50000x96_0_1 b (ix2 r k))
    (broadcastInDim S50000x96 ![] bcast_S_S50000x96 (constant (F := Ideal) S_ .f32 0x00000000#32) (ix2 r k)) = _
  exact congrArg₂ (fun y z => max (A (ix2 r k) + y) z) (bid_1b_ab b bcast_S1x96_S50000x96_0_1 r k)
    ((bid_scalar bcast_S_S50000x96 _ (ix2 r k)).trans Ideal.ofBits_zero_f32)

/-- The reference's logits at `(r, q)`. -/
theorem rLogits_apply (A : FVec Ideal S50000x96 .f32) (b : FVec Ideal S1x96 .f32) (W : FVec Ideal S96x2 .f32) (bc : FVec Ideal S1x2 .f32)
    (r : Fin 50000) (q : Fin 2) : logitsOf (reluBias A b) W bc (ix2 r q) = logit A b W bc r q := by
  unfold logitsOf logit
  refine congrArg₂ (· + ·) ?_ ?_
  · refine (Ideal.dotGeneral_apply _ none .single _ _ (ix2 r q)).trans ?_
    refine (rdot_apply _ _ r q).trans ?_
    exact Finset.sum_congr rfl fun k _ => congrArg (· * W (ix2 k q)) (rFeat_apply A b r k)
  · exact bid_1b_ab bc bcast_S1x2_S50000x2_0_1 r q

/-- The reference's row maximum at `(r, q)`: the larger of the row's two entries. -/
theorem rRowMax_apply (x : FVec Ideal S50000x2 .f32) (r : Fin 50000) (q : Fin 2) :
    rowMax x (ix2 r q) = max (x (ix2 r 0)) (x (ix2 r 1)) := by
  unfold rowMax
  refine (bid_a1_ab _ bcast_S50000x1_S50000x2_0_1 r q).trans ?_
  refine (bid_a_a1 _ bcast_S50000_S50000x1_0 r 0).trans ?_
  have e1 : broadcastInDim S50000 ![] bcast_S_S50000 (constant (F := Ideal) S_ .f32 0xFF800000#32) (ix1 r) = ⊥ :=
    (bid_scalar bcast_S_S50000 _ (ix1 r)).trans ofBits_neg_inf_f32
  have e2 : Host.reduce FloatOps.maximumf x (constant (F := Ideal) S_ .f32 0xFF800000#32) reducesTo_S50000x2_S50000_d1 h_S_ (ix1 r)
      = max (x (ix2 r 0)) (x (ix2 r 1)) := by
    refine (Host.reduce_eq_fold_single FloatOps.maximumf x _ reducesTo_S50000x2_S50000_d1 (by decide) h_S_ (ix1 r)).trans ?_
    refine Eq.trans (?_ : _ = (Finset.univ : Finset (Fin 2)).fold max ⊥ (fun k : Fin 2 => x (ix2 r k))) (fold_max_two _)
    exact congrArg₂ (fun b f => Finset.fold max b f (Finset.univ : Finset (Fin 2))) ofBits_neg_inf_f32
      (funext fun k => congrArg x (lift_lane _ r k))
  exact (congrArg₂ max e1 e2).trans (max_bot_left _)

/-- The logarithm of the reference's lane sum, spread back over the row, at `(r, q)`. -/
theorem rLogSum_apply (w : FVec Ideal S50000x2 .f32) (r : Fin 50000) (q : Fin 2) :
    broadcastInDim S50000x2 ![0, 1] bcast_S50000x1_S50000x2_0_1
        (Host.log (broadcastInDim S50000x1 ![0] bcast_S50000_S50000x1_0
          (Host.reduceAdd (F := Ideal) w (constant (F := Ideal) S_ .f32 0x00000000#32) reducesTo_S50000x2_S50000_d1 h_S_))) (ix2 r q)
      = Ideal.log (w (ix2 r 0) + w (ix2 r 1)) := by
  refine (bid_a1_ab _ bcast_S50000x1_S50000x2_0_1 r q).trans ?_
  refine (hostLog_apply _ (ix2 r (0 : Fin 1))).trans (congrArg Ideal.log ?_)
  refine (bid_a_a1 _ bcast_S50000_S50000x1_0 r 0).trans ?_
  refine (Ideal.hostReduceAdd_single reducesTo_S50000x2_S50000_d1 (by decide) w _ (ix1 r)).trans ?_
  refine Eq.trans (?_ : _ = 0 + ∑ k : Fin 2, w (ix2 r k)) ((zero_add _).trans (Fin.sum_univ_two _))
  exact congrArg₂ (· + ·) Ideal.ofBits_zero_f32 (Finset.sum_congr rfl fun k _ => congrArg w (lift_lane _ r k))

/-- The reference's log-softmax at `(r, q)`. -/
theorem rLogSoftmax_apply (x : FVec Ideal S50000x2 .f32) (r : Fin 50000) (q : Fin 2) :
    logSoftmax x (ix2 r q) = lsm2 (x (ix2 r 0)) (x (ix2 r 1)) (x (ix2 r q)) := by
  unfold logSoftmax lsm2
  refine congrArg₂ (· - ·) ?_ ?_
  · exact congrArg (fun z => x (ix2 r q) - z) (rRowMax_apply x r q)
  · refine (rLogSum_apply _ r q).trans ?_
    refine congrArg Ideal.log (congrArg₂ (· + ·) ?_ ?_)
    · exact (hostExp_apply _ (ix2 r 0)).trans (congrArg (fun z => Ideal.exp (x (ix2 r 0) - z)) (rRowMax_apply x r 0))
    · exact (hostExp_apply _ (ix2 r 1)).trans (congrArg (fun z => Ideal.exp (x (ix2 r 1) - z)) (rRowMax_apply x r 1))

end Reference

/-! ## The whole output array as one function of the input arrays -/

/-- The output array: at `(r, q)`, the log-softmax of row `r`'s two logits, read at `q`. -/
def G (A : (⟨2, ![50000, 96]⟩ : Shape).Idx → EReal) (b : (⟨2, ![1, 96]⟩ : Shape).Idx → EReal)
    (W : (⟨2, ![96, 2]⟩ : Shape).Idx → EReal) (bc : (⟨2, ![1, 2]⟩ : Shape).Idx → EReal) :
    (⟨2, ![50000, 2]⟩ : Shape).Idx → EReal := fun i =>
  lsm2 (logit A b W bc ⟨(i 0).val, idx2_lt0 i⟩ 0) (logit A b W bc ⟨(i 0).val, idx2_lt0 i⟩ 1)
    (logit A b W bc ⟨(i 0).val, idx2_lt0 i⟩ ⟨(i 1).val, idx2_lt1 i⟩)

/-- `G` at an index whose coordinates are `r` and `q`. -/
theorem G_apply_of (A : (⟨2, ![50000, 96]⟩ : Shape).Idx → EReal) (b : (⟨2, ![1, 96]⟩ : Shape).Idx → EReal)
    (W : (⟨2, ![96, 2]⟩ : Shape).Idx → EReal) (bc : (⟨2, ![1, 2]⟩ : Shape).Idx → EReal)
    (i : (⟨2, ![50000, 2]⟩ : Shape).Idx) (r : Fin 50000) (q : Fin 2) (h0 : (i 0).val = r.val) (h1 : (i 1).val = q.val) :
    G A b W bc i = lsm2 (logit A b W bc r 0) (logit A b W bc r 1) (logit A b W bc r q) := by
  have hr : (⟨(i 0).val, idx2_lt0 i⟩ : Fin 50000) = r := Fin.ext h0
  have hq : (⟨(i 1).val, idx2_lt1 i⟩ : Fin 2) = q := Fin.ext h1
  unfold G
  rw [hr, hq]

/-- A logit depends only on the row of features, the bias row, the column of weights and the head's bias it reads. -/
theorem logit_congr {n m : ℕ} (A : (⟨2, ![n, 96]⟩ : Shape).Idx → EReal) (A' : (⟨2, ![m, 96]⟩ : Shape).Idx → EReal)
    (b b' : (⟨2, ![1, 96]⟩ : Shape).Idx → EReal) (W W' : (⟨2, ![96, 2]⟩ : Shape).Idx → EReal)
    (bc bc' : (⟨2, ![1, 2]⟩ : Shape).Idx → EReal) (r : Fin n) (r' : Fin m) (q : Fin 2)
    (hA : ∀ k, A (ix2 r k) = A' (ix2 r' k)) (hb : ∀ k, b (ix2 (0 : Fin 1) k) = b' (ix2 (0 : Fin 1) k))
    (hW : ∀ k, W (ix2 k q) = W' (ix2 k q)) (hbc : bc (ix2 (0 : Fin 1) q) = bc' (ix2 (0 : Fin 1) q)) :
    logit A b W bc r q = logit A' b' W' bc' r' q := by
  unfold logit
  rw [hbc]
  exact congrArg (· + bc' (ix2 (0 : Fin 1) q)) (Finset.sum_congr rfl fun k _ => by rw [hA, hb, hW])

section Reference
open Cert.ReferenceIdeal

/-- The reference's network head is `G` of its four arrays. -/
theorem spec_eq_G (A : FVec Ideal S50000x96 .f32) (b : FVec Ideal S1x96 .f32) (W : FVec Ideal S96x2 .f32) (bc : FVec Ideal S1x2 .f32) :
    logSoftmax (logitsOf (reluBias A b) W bc) = G A b W bc := by
  funext i
  obtain ⟨r, q, rfl⟩ : ∃ (r : Fin 50000) (q : Fin 2), i = ix2 r q := ⟨i 0, i 1, eq_ix2 i⟩
  rw [rLogSoftmax_apply, rLogits_apply, rLogits_apply, rLogits_apply]
  exact (G_apply_of A b W bc (ix2 r q) r q rfl rfl).symm

end Reference

/-! ## From the grid's blocks to the whole array -/

section Blocks
open Cert.KernelIdeal Cert.KernelIdeal.Gen

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The decided block positions, for the side conditions in scope. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  block_indices_decided

/-- Row `p` of block `t` is row `2000 t + p` of the array. -/
theorem row_lt (t : Fin cfg2.N) (p : Fin 2000) : t.val * 2000 + p.val < 50000 := by
  have ht : t.val < 25 := Nat.lt_of_lt_of_eq t.isLt N_2
  have := p.isLt
  omega

/-- The feature window's block at point `t`, read at `(p, k)`. -/
theorem iblk0_apply (t : Fin cfg2.N) (p : Fin 2000) (k : Fin 96) :
    (iblk2 V c 0 t : Vec Ideal S2000x96 .f32) (ix2 p k)
      = (V c main_v66 : S50000x96.Idx → EReal) (ix2 ⟨t.val * 2000 + p.val, row_lt t p⟩ k) := by
  obtain ⟨e0, e1, -⟩ := block_indices t
  show (V c main_v66 : S50000x96.Idx → EReal) (((cfg2.win 0).blk t).view.emb (ix2 p k)) = _
  refine congrArg (V c main_v66 : S50000x96.Idx → EReal) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 96 + 1 * k.val = k.val; rw [e1]; omega

/-- The bias row's block at any point is the whole row. -/
theorem iblk1_apply (t : Fin cfg2.N) (k : Fin 96) :
    (iblk2 V c 1 t : Vec Ideal S1x96 .f32) (ix2 (0 : Fin 1) k) = (V c main_v35 : S1x96.Idx → EReal) (ix2 (0 : Fin 1) k) := by
  obtain ⟨-, -, e0, e1, -⟩ := block_indices t
  show (V c main_v35 : S1x96.Idx → EReal) (((cfg2.win 1).blk t).view.emb (ix2 (0 : Fin 1) k)) = _
  refine congrArg (V c main_v35 : S1x96.Idx → EReal) (funext fun a => Fin.ext ?_)
  match a with
  | ⟨0, _⟩ => show win2_1.index t (0 : Fin 2) * 1 + 1 * 0 = 0; rw [e0]
  | ⟨1, _⟩ => show win2_1.index t (1 : Fin 2) * 96 + 1 * k.val = k.val; rw [e1]; omega

/-- The head's weights' block at any point is the whole array. -/
theorem iblk2_apply (t : Fin cfg2.N) (k : Fin 96) (q : Fin 2) :
    (iblk2 V c 2 t : Vec Ideal S96x2 .bf16) (ix2 k q) = (V c main_v33 : S96x2.Idx → EReal) (ix2 k q) := by
  obtain ⟨-, -, -, -, e0, e1, -⟩ := block_indices t
  show (V c main_v33 : S96x2.Idx → EReal) (((cfg2.win 2).blk t).view.emb (ix2 k q)) = _
  refine congrArg (V c main_v33 : S96x2.Idx → EReal) (funext fun a => Fin.ext ?_)
  match a with
  | ⟨0, _⟩ => show win2_2.index t (0 : Fin 2) * 96 + 1 * k.val = k.val; rw [e0]; omega
  | ⟨1, _⟩ => show win2_2.index t (1 : Fin 2) * 2 + 1 * q.val = q.val; rw [e1]; omega

/-- The head's bias row's block at any point is the whole row. -/
theorem iblk3_apply (t : Fin cfg2.N) (q : Fin 2) :
    (iblk2 V c 3 t : Vec Ideal S1x2 .f32) (ix2 (0 : Fin 1) q) = (V c main_v36 : S1x2.Idx → EReal) (ix2 (0 : Fin 1) q) := by
  obtain ⟨-, -, -, -, -, -, e0, e1, -⟩ := block_indices t
  show (V c main_v36 : S1x2.Idx → EReal) (((cfg2.win 3).blk t).view.emb (ix2 (0 : Fin 1) q)) = _
  refine congrArg (V c main_v36 : S1x2.Idx → EReal) (funext fun a => Fin.ext ?_)
  match a with
  | ⟨0, _⟩ => show win2_3.index t (0 : Fin 2) * 1 + 1 * 0 = 0; rw [e0]
  | ⟨1, _⟩ => show win2_3.index t (1 : Fin 2) * 2 + 1 * q.val = q.val; rw [e1]; omega

end Blocks

section Blocks
open Cert.KernelIdeal Cert.KernelIdeal.Gen

variable (V : (c : Dev nD) → (b : Ref sig .tc) → Buf (Elt Ideal) ((c : Thread nD τ).loc b)) (c : Dev nD)

/-- A logit of row `p` of the blocks at point `t` is the logit of row `2000 t + p` of the arrays. -/
theorem logit_blocks (t : Fin cfg2.N) (p : Fin 2000) (q : Fin 2) :
    logit (iblk2 V c 0 t : Vec Ideal S2000x96 .f32) (iblk2 V c 1 t : Vec Ideal S1x96 .f32)
        (iblk2 V c 2 t : Vec Ideal S96x2 .bf16) (iblk2 V c 3 t : Vec Ideal S1x2 .f32) p q
      = logit (V c main_v66 : S50000x96.Idx → EReal) (V c main_v35 : S1x96.Idx → EReal)
          (V c main_v33 : S96x2.Idx → EReal) (V c main_v36 : S1x2.Idx → EReal) ⟨t.val * 2000 + p.val, row_lt t p⟩ q :=
  logit_congr _ _ _ _ _ _ _ _ p ⟨t.val * 2000 + p.val, row_lt t p⟩ q
    (fun k => iblk0_apply V c t p k) (fun k => iblk1_apply V c t k) (fun k => iblk2_apply V c t k q) (iblk3_apply V c t q)

/-- What point `t` writes back is block `t` of `G` of the region's input arrays. -/
theorem flushed_eq (t : Fin cfg2.N) :
    (dat2 (F := Ideal) V c).flushed 4 t = ((cfg2.win 4).blk t).view.read (Elt Ideal)
      (G (V c main_v66 : S50000x96.Idx → EReal) (V c main_v35 : S1x96.Idx → EReal)
        (V c main_v33 : S96x2.Idx → EReal) (V c main_v36 : S1x2.Idx → EReal)) := by
  show (cfg2.win 4).cut (grid2.coords t) ((dat2 (F := Ideal) V c).after 4 t) = _
  rw [after2_4]
  unfold out2_4
  rw [View.canon_unit_zero zero_offsets]
  simp only [View.ld_unit_zero (S := S2000x96) zero_offsets, View.ld_unit_zero (S := S1x96) zero_offsets,
    View.ld_unit_zero (S := S96x2) zero_offsets, View.ld_unit_zero (S := S1x2) zero_offsets]
  obtain ⟨-, -, -, -, -, -, -, -, e0, e1⟩ := block_indices t
  refine funext fun (y : S2000x2.Idx) => ?_
  obtain ⟨p, q, rfl⟩ : ∃ (p : Fin 2000) (q : Fin 2), y = ix2 p q := ⟨y 0, y 1, eq_ix2 y⟩
  show k2_pay1 (iblk2 V c 0 t : Vec Ideal S2000x96 .f32) (iblk2 V c 1 t : Vec Ideal S1x96 .f32)
      (iblk2 V c 2 t : Vec Ideal S96x2 .bf16) (iblk2 V c 3 t : Vec Ideal S1x2 .f32) (ix2 p q)
    = G (V c main_v66 : S50000x96.Idx → EReal) (V c main_v35 : S1x96.Idx → EReal)
        (V c main_v33 : S96x2.Idx → EReal) (V c main_v36 : S1x2.Idx → EReal) (((cfg2.win 4).blk t).view.emb (ix2 p q))
  refine (k2_pay1_apply _ _ _ _ p q).trans ?_
  rw [logit_blocks V c t p 0, logit_blocks V c t p 1, logit_blocks V c t p q]
  refine (G_apply_of _ _ _ _ _ ⟨t.val * 2000 + p.val, row_lt t p⟩ q ?_ ?_).symm
  · show win2_4.index t (0 : Fin 2) * 2000 + 1 * p.val = t.val * 2000 + p.val
    rw [e0]; omega
  · show win2_4.index t (1 : Fin 2) * 2 + 1 * q.val = q.val
    rw [e1]; omega

/-- An index of the output array is in point `t`'s block iff each coordinate is in the block's range on its axis. -/
theorem mem_blk (t : Fin cfg2.N) (i : S50000x2.Idx) :
    i ∈ ((cfg2.win 4).blk t).view.set ↔ ∀ a : Fin 2, win2_4.index t a * S2000x2.size a ≤ (i a).val
      ∧ (i a).val < win2_4.index t a * S2000x2.size a + S2000x2.size a := by
  show i ∈ ((View.whole main_v67).slice (win2_4.rect t)).set ↔ _
  rw [View.set_slice_whole, Rect.mem_set_unit]
  exact Iff.rfl

/-- Every row of the output is in the block of the point `row / 2000`, which writes its block back. -/
theorem cover (i : S50000x2.Idx) :
    ∃ t : Fin cfg2.N, (cfg2.win 4).flush t = true ∧ i ∈ ((cfg2.win 4).blk t).view.set := by
  have hi0 : (i 0).val < 50000 := (i 0).isLt
  have hi1 : (i 1).val < 2 := (i 1).isLt
  have hN : grid2.N = 25 := N_2
  have ht : (i 0).val / 2000 < cfg2.N := by show (i 0).val / 2000 < grid2.N; rw [hN]; omega
  refine ⟨⟨(i 0).val / 2000, ht⟩, flush2_4 _, ?_⟩
  rw [mem_blk]
  obtain ⟨-, -, -, -, -, -, -, -, e0, e1⟩ := block_indices ⟨(i 0).val / 2000, ht⟩
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, ht⟩ (1 : Fin 2) * 2 ≤ (i 1).val
      ∧ (i 1).val < win2_4.index ⟨(i 0).val / 2000, ht⟩ (1 : Fin 2) * 2 + 2
    rw [e1]; omega

end Blocks

end Region2

open Cert.KernelIdeal Cert.KernelIdeal.Gen in
/-- Region 2's output array after all 25 write-backs is the reference's network head — bias, clamp, the classifier's
    logits and the row-wise log-softmax — of the region's four input arrays. -/
theorem region2_final (V : (c : Dev nD) → (b : Ref sig .tc) → Buf (Elt Ideal) ((c : Thread nD τ).loc b)) (c : Dev nD) :
    ((dat2 (F := Ideal) V c).arrAt 4 cfg2.N : Cert.ReferenceIdeal.S50000x2.Idx → EReal)
      = logSoftmax (logitsOf (reluBias (V c main_v66) (V c main_v35))
          (V c main_v33 : FVec Ideal Cert.ReferenceIdeal.S96x2 .f32) (V c main_v36)) := by
  refine Eq.trans ?_ (Region2.spec_eq_G _ _ _ _).symm
  exact (dat2 (F := Ideal) V c).arrAt_eq_of_cover 4 _ (fun t _ => Region2.flushed_eq V c t) Region2.cover

end Cert.GCN

end
-- ==== Proof.AggConcat.lean ====
/-
  The kernel's aggregation equals the reference's.

  The kernel's program adds the node's own row by appending 50000 self edges i → i (weight `dd i`) to the edge
  lists and running ONE accumulating scatter over the 850000 updates; the reference scatters over the 800000 edges
  and adds `H · dd` afterwards. At the extended reals an accumulating scatter is an exact finite sum, so the two
  agree by splitting the sum over the 850000 updates into the first 800000 (where every concatenation reads its
  first operand, so each term is literally the reference's) and the last 50000 (where the source and the target are
  the node's own number, so exactly one term lands on each output row). Only commutativity and associativity of
  addition are used.
-/
import proofs.«134879_j22325240005451_2_alg».proof.Proof.Spec
import proofs.«134879_j22325240005451_2_alg».proof.Proof.KSpec
import Idealize.ShloMosaic.Lib.ValueIdx
import Idealize.ShloMosaic.Lib.Pipeline.Value
import Idealize.ShloMosaic.Lib.IdealHost
import Idealize.ShloMosaic.PureOps.Ideal.Laws

noncomputable section

namespace Cert.GCN

open Idealize.ShloMosaic Idealize.ShloMosaic.ValueIdx
open scoped BigOperators

namespace AggConcat

/-! ## A scatter of rows: operand [N, C], scatter indices [E, 1], updates [E, C] -/

section RowScatter
variable {N C E : Nat}

/-- The dimension numbers of a scatter that adds row `e` of the updates at the operand's row `idx[e, 0]`. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window starts at the update row's scatter index, read signed. -/
theorem rowScatter_start0 {w : Nat} (j : (⟨2, ![E, C]⟩ : Shape).Idx) (idx : IVec ⟨2, ![E, 1]⟩ w) :
    (rowScatter N C E wf).start j idx 0 = (idx (ix2 (n0 := E) (n1 := 1) (j 0) 0)).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (n0 := E) (n1 := 1) (j 0) 0 := by
    funext b; refine Fin.ext ?_
    match b with
    | ⟨0, _⟩ => rfl
    | ⟨1, _⟩ => rfl
  rw [hsi]

/-- On the column axis the window starts at 0. -/
theorem rowScatter_start1 {w : Nat} (j : (⟨2, ![E, C]⟩ : Shape).Idx) (idx : IVec ⟨2, ![E, 1]⟩ w) :
    (rowScatter N C E wf).start j idx 1 = 0 := by
  unfold ScatterDims.start
  rw [dif_neg (show (1 : Fin 2) ∉ ([0] : List (Fin 2)) by decide)]

/-- The row axis is inserted: no window coordinate. -/
theorem rowScatter_window0 (j : (⟨2, ![E, C]⟩ : Shape).Idx) : (rowScatter N C E wf).window j 0 = 0 := by
  have h : (0 : Fin 2) ∉ (rowScatter N C E wf).sKept := by
    show (0 : Fin 2) ∉ ([1] : List (Fin 2)); decide
  unfold ScatterDims.window
  rw [dif_neg h]

/-- The column axis carries the update's column. -/
theorem rowScatter_window1 (j : (⟨2, ![E, C]⟩ : Shape).Idx) : (rowScatter N C E wf).window j 1 = (j 1).val := by
  have h : (1 : Fin 2) ∈ (rowScatter N C E wf).sKept := by
    show (1 : Fin 2) ∈ ([1] : List (Fin 2)); decide
  unfold ScatterDims.window
  rw [dif_pos h]
  rfl

/-- Update `j` lands on operand element `i` exactly when its row's scatter index, read signed, is `i`'s row and its
    column is `i`'s column. -/
theorem rowScatter_resultIdx?_eq_some_iff {w : Nat} (j : (⟨2, ![E, C]⟩ : Shape).Idx) (idx : IVec ⟨2, ![E, 1]⟩ w)
    (i : (⟨2, ![N, C]⟩ : Shape).Idx) :
    (rowScatter N C E wf).resultIdx? j idx = some i ↔
      (idx (ix2 (n0 := E) (n1 := 1) (j 0) 0)).toInt = ((i 0).val : Int) ∧ (j 1).val = (i 1).val := by
  have hi0 : (i 0).val < N := idx2_lt0 i
  have hi1 : (i 1).val < C := idx2_lt1 i
  unfold ScatterDims.resultIdx?
  split
  · next h =>
    rw [Option.some.injEq]
    constructor
    · intro e
      have e0 := congrArg (fun k => (k 0).val) e
      have e1 := congrArg (fun k => (k 1).val) e
      simp only [rowScatter_start0, rowScatter_start1, rowScatter_window0, rowScatter_window1] at e0 e1
      have h0 := h 0
      simp only [rowScatter_start0, rowScatter_window0] at h0
      omega
    · rintro ⟨e0, e1⟩
      funext a
      refine Fin.ext ?_
      match a with
      | ⟨0, _⟩ =>
        show ((rowScatter N C E wf).start j idx 0 + ((rowScatter N C E wf).window j 0 : Int)).toNat = (i 0).val
        rw [rowScatter_start0, rowScatter_window0, e0]; omega
      | ⟨1, _⟩ =>
        show ((rowScatter N C E wf).start j idx 1 + ((rowScatter N C E wf).window j 1 : Int)).toNat = (i 1).val
        rw [rowScatter_start1, rowScatter_window1, e1]; omega
  · next h =>
    constructor
    · intro e; cases e
    · rintro ⟨e0, e1⟩
      exfalso; apply h
      intro a
      match a with
      | ⟨0, _⟩ =>
        show 0 ≤ (rowScatter N C E wf).start j idx 0 + ((rowScatter N C E wf).window j 0 : Int) ∧
          (rowScatter N C E wf).start j idx 0 + ((rowScatter N C E wf).window j 0 : Int) < (N : Int)
        rw [rowScatter_start0, rowScatter_window0, e0]; omega
      | ⟨1, _⟩ =>
        show 0 ≤ (rowScatter N C E wf).start j idx 1 + ((rowScatter N C E wf).window j 1 : Int) ∧
          (rowScatter N C E wf).start j idx 1 + ((rowScatter N C E wf).window j 1 : Int) < (C : Int)
        rw [rowScatter_start1, rowScatter_window1, e1]; omega

end RowScatter

/-! ## A gather of rows: operand [N, C], start indices [E, 1], result [E, C] -/

section RowGather
variable {N C E : Nat} {α : Type}

/-- A start index read as a signed integer and clamped into `[0, N − 1]`. -/
def clampRow (N : Nat) (hN : 0 < N) {w : Nat} (v : BitVec w) : Fin N := ⟨min v.toInt.toNat (N - 1), by omega⟩

theorem clampRow_val (hN : 0 < N) {w : Nat} (v : BitVec w) : (clampRow N hN v).val = min v.toInt.toNat (N - 1) := rfl

/-- The dimension numbers of a gather whose result row `e` is the operand's row `idx[e, 0]`. -/
abbrev rowGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The gather read at `j`: the operand's row at the start index `idx[j 0, 0]`, read signed and clamped into
    `[0, N − 1]`, at `j`'s column. -/
theorem gather_row_apply {w : Nat} (hN : 0 < N) (x : (⟨2, ![N, C]⟩ : Shape).Idx → α) (idx : IVec ⟨2, ![E, 1]⟩ w)
    (j : (⟨2, ![E, C]⟩ : Shape).Idx) :
    Host.gather (rowGather N C E wf) x idx j =
      x (ix2 (n0 := N) (n1 := C) (clampRow N hN (idx (ix2 (n0 := E) (n1 := 1) (j 0) 0))) (j 1)) := by
  unfold Host.gather
  congr 1
  funext a
  refine Fin.ext ?_
  match a with
  | ⟨0, _⟩ =>
    show (rowGather N C E wf).start j idx 0 + (rowGather N C E wf).batchCoord j 0 + (rowGather N C E wf).offCoord j 0
      = min (idx (ix2 (n0 := E) (n1 := 1) (j 0) 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx j ⟨List.idxOf (0 : Fin 2) (rowGather N C E wf).startIndexMap,
        List.idxOf_lt_length_iff.2 (List.mem_singleton.mpr rfl)⟩ = ix2 (n0 := E) (n1 := 1) (j 0) 0 := by
      funext b; refine Fin.ext ?_
      match b with
      | ⟨0, _⟩ => rfl
      | ⟨1, _⟩ => rfl
    rw [hsi]
    rfl
  | ⟨1, _⟩ =>
    show (rowGather N C E wf).start j idx 1 + (rowGather N C E wf).batchCoord j 1 + (rowGather N C E wf).offCoord j 1 = (j 1).val
    have hk : (1 : Fin 2) ∈ (rowGather N C E wf).sKept := by
      show (1 : Fin 2) ∈ ([1] : List (Fin 2)); decide
    rw [GatherDims.batchCoord_eq_zero _ _ _ List.not_mem_nil]
    unfold GatherDims.start GatherDims.offCoord
    rw [dif_neg (show (1 : Fin 2) ∉ ([0] : List (Fin 2)) by decide), dif_pos hk]
    simp only [Nat.add_zero, Nat.zero_add]
    rfl

end RowGather

/-! ## Broadcasts and two-piece concatenations of vectors, read at an index -/

section Layout
variable {α : Type}

/-- A vector [E] broadcast to a column [E, 1] reads the vector's entry at the row. -/
theorem bcast_col_apply {E : Nat} (h : (⟨1, ![E]⟩ : Shape).BroadcastsInDim ⟨2, ![E, 1]⟩ ![0])
    (x : (⟨1, ![E]⟩ : Shape).Idx → α) (e : Fin E) (z : Fin 1) :
    broadcastInDim ⟨2, ![E, 1]⟩ ![0] h x (ix2 e z) = x (ix1 e) := by
  refine broadcastInDim_apply _ _ _ _ _ (fun a => ?_)
  match a with
  | ⟨0, _⟩ =>
    show e.val = if E = 1 then 0 else e.val
    split <;> omega

/-- A column [E, 1] broadcast along the columns to [E, C] reads the column's entry at the row. -/
theorem bcast_row_apply {E C : Nat} (h : (⟨2, ![E, 1]⟩ : Shape).BroadcastsInDim ⟨2, ![E, C]⟩ ![0, 1])
    (x : (⟨2, ![E, 1]⟩ : Shape).Idx → α) (e : Fin E) (f : Fin C) :
    broadcastInDim ⟨2, ![E, C]⟩ ![0, 1] h x (ix2 e f) = x (ix2 e 0) := by
  refine broadcastInDim_apply _ _ _ _ _ (fun a => ?_)
  match a with
  | ⟨0, _⟩ =>
    show e.val = if E = 1 then 0 else e.val
    split <;> omega
  | ⟨1, _⟩ => rfl

/-- A concatenation of two vectors at a position inside the first reads the first. -/
theorem concat_left {A B K : Nat} (h : Shape.Concatenates [(⟨1, ![A]⟩ : Shape), ⟨1, ![B]⟩] ⟨1, ![K]⟩ 0)
    (x₁ : (⟨1, ![A]⟩ : Shape).Idx → α) (x₂ : (⟨1, ![B]⟩ : Shape).Idx → α) (e : Fin K) (he : e.val < A) :
    concatenate ⟨1, ![K]⟩ 0 [⟨⟨1, ![A]⟩, x₁⟩, ⟨⟨1, ![B]⟩, x₂⟩] h (ix1 e) = x₁ (ix1 ⟨e.val, he⟩) :=
  concatenate_pair_apply_left 0 x₁ x₂ h (ix1 e) rfl (ix1 ⟨e.val, he⟩) (fun b => by
    match b with
    | ⟨0, _⟩ => rfl)

/-- A concatenation of two vectors at a position past the first reads the second, the first's length less. -/
theorem concat_right {A B K : Nat} (h : Shape.Concatenates [(⟨1, ![A]⟩ : Shape), ⟨1, ![B]⟩] ⟨1, ![K]⟩ 0)
    (x₁ : (⟨1, ![A]⟩ : Shape).Idx → α) (x₂ : (⟨1, ![B]⟩ : Shape).Idx → α) (e : Fin K) (n : Fin B)
    (he : n.val + A = e.val) :
    concatenate ⟨1, ![K]⟩ 0 [⟨⟨1, ![A]⟩, x₁⟩, ⟨⟨1, ![B]⟩, x₂⟩] h (ix1 e) = x₂ (ix1 n) :=
  concatenate_pair_apply_right 0 x₁ x₂ h (ix1 e) rfl rfl (ix1 n)
    (fun b hb => absurd (Subsingleton.elim _ _) hb) he

end Layout

/-! ## 32-bit words of small numbers -/

section Words

/-- A number below 2³¹ as a 32-bit word reads back signed as itself. -/
theorem toInt_ofNat_small (n : Nat) (hn : n < 2147483648) : (BitVec.ofNat 32 n).toInt = (n : Int) := by
  have h : (BitVec.ofNat 32 n).toNat = n := by
    rw [BitVec.toNat_ofNat]; omega
  rw [BitVec.toInt_eq_toNat_of_lt (by rw [h]; omega), h]

/-- A number below 2³¹ as a 32-bit word is not negative. -/
theorem slt_zero_ofNat_small (n : Nat) (hn : n < 2147483648) : IntOp.cmpi .slt (BitVec.ofNat 32 n) 0#32 = 0#1 := by
  have h : (BitVec.ofNat 32 n).slt 0#32 = false := by
    rw [BitVec.slt, toInt_ofNat_small n hn]
    simp
  show BitVec.ofBool ((BitVec.ofNat 32 n).slt 0#32) = 0#1
  rw [h]; rfl

end Words

/-! ## The accumulating scatter of rows as a sum over the update rows -/

section Sums

/-- The accumulating scatter of rows at element `i`: the operand's element plus the sum, over the update rows whose
    scatter index (read signed) is `i`'s row, of the update at that row and `i`'s column. -/
theorem scatterAdd_rows_apply {N C E w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : (⟨2, ![N, C]⟩ : Shape).Idx) :
    Ideal.hostScatterAdd (rowScatter N C E wf) x idx upd i =
      x i + ∑ e : Fin E, if (idx (ix2 (n0 := E) (n1 := 1) e 0)).toInt = ((i 0).val : Int)
        then upd (ix2 (n0 := E) (n1 := C) e (i 1)) else 0 := by
  unfold Ideal.hostScatterAdd
  congr 1
  rw [Finset.sum_filter, sum_idx2]
  refine Finset.sum_congr rfl (fun e _ => ?_)
  simp only [rowScatter_resultIdx?_eq_some_iff]
  by_cases hA : (idx (ix2 (n0 := E) (n1 := 1) e 0)).toInt = ((i 0).val : Int)
  · rw [if_pos hA]
    refine (Finset.sum_eq_single (i 1) (fun f _ hf => ?_) (fun h => absurd (Finset.mem_univ _) h)).trans ?_
    · exact if_neg (fun h => hf (Fin.ext h.2))
    · exact if_pos ⟨hA, rfl⟩
  · rw [if_neg hA]
    exact Finset.sum_eq_zero (fun f _ => if_neg (fun h => hA h.1))

/-- A sum over `Fin K`, `K = A + B`, is the sum over the first `A` plus the sum over the last `B`. -/
theorem sum_fin_split {M : Type} [AddCommMonoid M] {A B K : Nat} (h : A + B = K) (g : Fin K → M) :
    ∑ e : Fin K, g e = ∑ a : Fin A, g ⟨a.val, by have := a.isLt; omega⟩
      + ∑ b : Fin B, g ⟨A + b.val, by have := b.isLt; omega⟩ := by
  subst h
  rw [Fin.sum_univ_add]
  rfl

end Sums

/-! ## The same two reads at an element named by its coordinates -/

section AtCoords

/-- The gather of rows at (e, f). -/
theorem gather_row_apply2 {N C E w : Nat} {α : Type}
    (wf : GatherDims.WF ⟨2, ![N, C]⟩ ⟨2, ![E, 1]⟩ ⟨2, ![E, C]⟩ [1] [0] [] [0] [] 1 ![1, C]) (hN : 0 < N)
    (x : (⟨2, ![N, C]⟩ : Shape).Idx → α) (idx : IVec ⟨2, ![E, 1]⟩ w) (e : Fin E) (f : Fin C) :
    Host.gather (rowGather N C E wf) x idx (ix2 e f) =
      x (ix2 (n0 := N) (n1 := C) (clampRow N hN (idx (ix2 (n0 := E) (n1 := 1) e 0))) f) :=
  gather_row_apply wf hN x idx (ix2 e f)

/-- The accumulating scatter of rows at (a, b). -/
theorem scatterAdd_rows_apply2 {N C E w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (a : Fin N) (b : Fin C) :
    Ideal.hostScatterAdd (rowScatter N C E wf) x idx upd (ix2 a b) =
      x (ix2 a b) + ∑ e : Fin E, if (idx (ix2 (n0 := E) (n1 := 1) e 0)).toInt = (a.val : Int)
        then upd (ix2 (n0 := E) (n1 := C) e b) else 0 :=
  scatterAdd_rows_apply wf x idx upd (ix2 a b)

end AtCoords

section Sides
variable [Cert.KernelIdeal.Facts] [Cert.ReferenceIdeal.Facts]

/-- A node index as a gather normalises it, on one word: a negative one has 50000 added. -/
def normWord (v : BitVec 32) : BitVec 32 :=
  Scalar.select (IntOp.cmpi .slt v 0#32) (IntOp.addi v 50000#32) v

theorem nidx_apply (s : IVec Cert.ReferenceIdeal.S800000 32) (e : Fin 800000) :
    nidx s (ix1 e) = normWord (s (ix1 e)) := rfl

theorem nidxAug_apply (s : IVec Cert.KernelIdeal.S850000 32) (e : Fin 850000) :
    nidxAug s (ix1 e) = normWord (s (ix1 e)) := rfl

/-- The row of `H` a gather reads for the source word `v` (normalised, read signed, clamped), at column `b`. -/
def rowAt (H : FVec Ideal Cert.ReferenceIdeal.S50000x96 .f32) (v : BitVec 32) (b : Fin 96) : EReal :=
  H (ix2 (n0 := 50000) (n1 := 96) (clampRow 50000 (by omega) (normWord v)) b)

theorem kAgg_apply (src dst : IVec Cert.ReferenceIdeal.S800000 32) (nrm : FVec Ideal Cert.ReferenceIdeal.S800000 .f32)
    (dd : FVec Ideal Cert.ReferenceIdeal.S50000 .f32) (H : FVec Ideal Cert.ReferenceIdeal.S50000x96 .f32)
    (a : Fin 50000) (b : Fin 96) :
    kAggOf src dst nrm dd H (ix2 a b) = ∑ e : Fin 850000,
      if (augIdx dst (ix1 e)).toInt = (a.val : Int) then rowAt H (augIdx src (ix1 e)) b * augW nrm dd (ix1 e) else 0 := by
  unfold kAggOf
  have hd : Cert.KernelIdeal.scatter_S50000x96_S850000x1_S850000x96_1_0_0_1 = rowScatter 50000 96 850000
    Cert.KernelIdeal.Facts₀.scatter_S50000x96_S850000x1_S850000x96_1_0_0_1_wf := rfl
  have hg : Cert.KernelIdeal.gather_S50000x96_S850000x1_S850000x96_1_0_n_n_0_1_196 = rowGather 50000 96 850000
    Cert.KernelIdeal.Facts₀.gather_S50000x96_S850000x1_S850000x96_1_0_n_n_0_1_196_wf := rfl
  rw [Host.scatterAdd, Ideal.hostScatterAdd_def, hd, hg]

  rw [scatterAdd_rows_apply2, broadcastInDim_scalar_apply, constant_apply, Ideal.ofBits_zero_f32, zero_add]
  refine Finset.sum_congr rfl (fun e _ => ?_)
  rw [bcast_col_apply]
  refine if_congr Iff.rfl ?_ rfl
  rw [mulf_apply, extf_apply, bcast_row_apply, bcast_col_apply]
  congr 1
  rw [gather_row_apply2 _ (show 0 < 50000 by omega), bcast_col_apply, nidxAug_apply]
  rfl

/-- The reference's aggregation at element (a, b): the sum over the 800000 edges whose target is `a` of the source's
    row at column `b` times the edge's weight, plus the node's own entry times its own weight. -/
theorem aggGen_apply (src dst : IVec Cert.ReferenceIdeal.S800000 32) (nrm : FVec Ideal Cert.ReferenceIdeal.S800000 .f32)
    (dd : FVec Ideal Cert.ReferenceIdeal.S50000 .f32) (H : FVec Ideal Cert.ReferenceIdeal.S50000x96 .f32)
    (a : Fin 50000) (b : Fin 96) :
    aggGen src dst nrm dd H (ix2 a b) = (∑ e : Fin 800000,
      if (dst (ix1 e)).toInt = (a.val : Int) then rowAt H (src (ix1 e)) b * nrm (ix1 e) else 0)
        + H (ix2 a b) * dd (ix1 a) := by
  unfold aggGen
  have hd : Cert.ReferenceIdeal.scatter_S50000x96_S800000x1_S800000x96_1_0_0_1 = rowScatter 50000 96 800000
    Cert.ReferenceIdeal.Facts₀.scatter_S50000x96_S800000x1_S800000x96_1_0_0_1_wf := rfl
  have hg : Cert.ReferenceIdeal.gather_S50000x96_S800000x1_S800000x96_1_0_n_n_0_1_196 = rowGather 50000 96 800000
    Cert.ReferenceIdeal.Facts₀.gather_S50000x96_S800000x1_S800000x96_1_0_n_n_0_1_196_wf := rfl
  rw [addf_apply, Host.scatterAdd, Ideal.hostScatterAdd_def, hd, hg]
  refine congrArg₂ (· + ·) ?_ ?_
  · rw [scatterAdd_rows_apply2, broadcastInDim_scalar_apply, constant_apply, Ideal.ofBits_zero_f32, zero_add]
    refine Finset.sum_congr rfl (fun e _ => ?_)
    rw [bcast_col_apply]
    refine if_congr Iff.rfl ?_ rfl
    rw [mulf_apply, bcast_row_apply, bcast_col_apply]
    congr 1
    rw [gather_row_apply2 _ (show 0 < 50000 by omega), bcast_col_apply, nidx_apply]
    rfl
  · rw [mulf_apply, bcast_row_apply, bcast_col_apply]

/-! ## The augmented lists at the two kinds of positions -/

/-- Below 800000 an augmented edge list reads the edge list. -/
theorem augIdx_edge (s : IVec Cert.ReferenceIdeal.S800000 32) (e : Fin 800000) (h : e.val < 850000) :
    augIdx s (ix1 ⟨e.val, h⟩) = s (ix1 e) :=
  concat_left _ _ _ ⟨e.val, h⟩ e.isLt

/-- At 800000 + n an augmented edge list reads the word of the node number n. -/
theorem augIdx_self (s : IVec Cert.ReferenceIdeal.S800000 32) (n : Fin 50000) (h : 800000 + n.val < 850000) :
    augIdx s (ix1 ⟨800000 + n.val, h⟩) = BitVec.ofNat 32 n.val :=
  concat_right _ _ _ ⟨800000 + n.val, h⟩ n (Nat.add_comm _ _)

/-- Below 800000 the augmented weights read the edges' weights. -/
theorem augW_edge (nrm : FVec Ideal Cert.ReferenceIdeal.S800000 .f32) (dd : FVec Ideal Cert.ReferenceIdeal.S50000 .f32)
    (e : Fin 800000) (h : e.val < 850000) : augW nrm dd (ix1 ⟨e.val, h⟩) = nrm (ix1 e) :=
  concat_left _ _ _ ⟨e.val, h⟩ e.isLt

/-- At 800000 + n the augmented weights read the node's own weight. -/
theorem augW_self (nrm : FVec Ideal Cert.ReferenceIdeal.S800000 .f32) (dd : FVec Ideal Cert.ReferenceIdeal.S50000 .f32)
    (n : Fin 50000) (h : 800000 + n.val < 850000) : augW nrm dd (ix1 ⟨800000 + n.val, h⟩) = dd (ix1 n) :=
  concat_right _ _ _ ⟨800000 + n.val, h⟩ n (Nat.add_comm _ _)

/-- The word of a node number is not negative, so normalising leaves it. -/
theorem normWord_node (n : Fin 50000) : normWord (BitVec.ofNat 32 n.val) = BitVec.ofNat 32 n.val := by
  unfold normWord
  rw [slt_zero_ofNat_small n.val (by have := n.isLt; omega), select_zero]

/-- The gather's row for the word of a node number is that node's row. -/
theorem rowAt_node (H : FVec Ideal Cert.ReferenceIdeal.S50000x96 .f32) (n : Fin 50000) (b : Fin 96) :
    rowAt H (BitVec.ofNat 32 n.val) b = H (ix2 n b) := by
  unfold rowAt
  rw [normWord_node]
  congr 2
  refine Fin.ext ?_
  rw [clampRow_val, toInt_ofNat_small n.val (by have := n.isLt; omega)]
  have := n.isLt
  omega

end Sides

end AggConcat

/-! ## The theorem -/

open AggConcat

variable [Cert.KernelIdeal.Facts] [Cert.ReferenceIdeal.Facts]

/-- The kernel's aggregation over the augmented edge lists is the reference's: the sum over the 850000 updates is the
    sum over the 800000 edges, term by term the reference's, plus the sum over the 50000 self edges, of which exactly
    the node's own lands on its row. -/
theorem kAgg_eq (src dst : IVec Cert.ReferenceIdeal.S800000 32) (nrm : FVec Ideal Cert.ReferenceIdeal.S800000 .f32)
    (dd : FVec Ideal Cert.ReferenceIdeal.S50000 .f32) (H : FVec Ideal Cert.ReferenceIdeal.S50000x96 .f32) :
    kAggOf src dst nrm dd H = aggGen src dst nrm dd H := by
  funext i
  obtain ⟨a, b, rfl⟩ : ∃ (a : Fin 50000) (b : Fin 96), i = ix2 a b := ⟨i 0, i 1, eq_ix2 i⟩
  rw [kAgg_apply, aggGen_apply, sum_fin_split (A := 800000) (B := 50000) (by norm_num)]
  refine congrArg₂ (· + ·) ?_ ?_
  · refine Finset.sum_congr rfl (fun e _ => ?_)
    rw [augIdx_edge, augIdx_edge, augW_edge]
  · refine (Finset.sum_congr rfl
      (g := fun n : Fin 50000 => if n = a then H (ix2 n b) * dd (ix1 n) else 0) (fun n _ => ?_)).trans ?_
    · rw [augIdx_self, augIdx_self, augW_self, toInt_ofNat_small n.val (by have := n.isLt; omega), rowAt_node]
      exact if_congr ⟨fun h => Fin.ext (by omega), fun h => by rw [h]⟩ rfl rfl
    · rw [Finset.sum_ite_eq', if_pos (Finset.mem_univ a)]

end Cert.GCN

end
-- ==== Proof.KChain.lean ====
/-
  The kernel program's result buffer holds the network `Cert.GCN.gcn` of the argument arrays.

  The program is three regions among host stretches; the generated frame names every buffer's contents at each
  segment boundary as a fold (`Gen.W1` … `Gen.W6`). Read in order: the host prepares the augmented edge lists
  (the 50000 self edges appended), the augmented weights, the rounded weight matrices and the bias rows; region 0
  leaves X · W₁; the host aggregates it over the augmented lists, which is the specification's aggregation — the sum
  over the edges plus the node's own weighted row (`kAgg_eq`); region 1 leaves relu (· + b₁) · W₂; the host
  aggregates again; region 2 leaves the log-softmax of relu (· + b₂) · Wc + bc. A bias vector reshaped to a 1 × n row
  is the vector spread along a unit axis, which is how the specification writes it.
-/
import proofs.«134879_j22325240005451_2_alg».proof.Proof.Spec
import proofs.«134879_j22325240005451_2_alg».proof.Proof.KSpec
import proofs.«134879_j22325240005451_2_alg».proof.Proof.KStage
import proofs.«134879_j22325240005451_2_alg».proof.Proof.Region0
import proofs.«134879_j22325240005451_2_alg».proof.Proof.Region1
import proofs.«134879_j22325240005451_2_alg».proof.Proof.Region2
import proofs.«134879_j22325240005451_2_alg».proof.Proof.Gen.KernelIdeal.Frame
import proofs.«134879_j22325240005451_2_alg».proof.Proof.Gen.ReferenceIdeal
import proofs.«134879_j22325240005451_2_alg».proof.Proof.AggConcat
import Idealize.ShloMosaic.Lib.Pipeline.Value
import Idealize.ShloMosaic.Lib.ValueIdx
import Idealize.ShloMosaic.Lib.ValueLayout

set_option maxRecDepth 16384

noncomputable section

namespace Cert.GCN

open Idealize.ShloMosaic Idealize.ShloMosaic.TcCoe Idealize.SL.Sem Idealize.ShloMosaic.StableHlo
open Idealize.ShloMosaic.Pipeline (Dat)
open Cert.KernelIdeal

-- the folds over the host stretches are never evaluated here: every fact about them is one of the stage lemmas
attribute [local irreducible] StableHlo.after

variable (m : (ℓ : Loc nD τ sig) → Buf (Elt Ideal) ℓ) (ρ : Dev nD → PrngReg) (c : Dev nD)

/-! ## The buffers the host computes once, before the first region, carried to where they are read -/

/-- The launch contents at a buffer are the launch memory's. -/
theorem w0 (b : Ref sig .tc) : Gen.W0 m ρ c (Proc.devRef .tc b) = m ((c.tc : Thread nD τ).loc b) := rfl

theorem w1_arg0 : Gen.W1 m ρ c (Proc.devRef .tc main_arg0) = m ((c.tc : Thread nD τ).loc main_arg0) :=
  stage0_arg0 (Gen.W0 m ρ c)
theorem w1_v31 : Gen.W1 m ρ c (Proc.devRef .tc main_v31) = (m ((c.tc : Thread nD τ).loc main_arg2) : S128x96.Idx → EReal) :=
  stage0_v31 (Gen.W0 m ρ c)
theorem w1_v32 : Gen.W1 m ρ c (Proc.devRef .tc main_v32) = (m ((c.tc : Thread nD τ).loc main_arg4) : S96x96.Idx → EReal) :=
  stage0_v32 (Gen.W0 m ρ c)
theorem w1_v33 : Gen.W1 m ρ c (Proc.devRef .tc main_v33) = (m ((c.tc : Thread nD τ).loc main_arg6) : S96x2.Idx → EReal) :=
  stage0_v33 (Gen.W0 m ρ c)
theorem w1_v34 : Gen.W1 m ρ c (Proc.devRef .tc main_v34)
    = shapeCast S1x96 (m ((c.tc : Thread nD τ).loc main_arg3)) Gen.shapeCasts_S96_S1x96 := stage0_v34 (Gen.W0 m ρ c)
theorem w1_v35 : Gen.W1 m ρ c (Proc.devRef .tc main_v35)
    = shapeCast S1x96 (m ((c.tc : Thread nD τ).loc main_arg5)) Gen.shapeCasts_S96_S1x96 := stage0_v35 (Gen.W0 m ρ c)
theorem w1_v36 : Gen.W1 m ρ c (Proc.devRef .tc main_v36)
    = shapeCast S1x2 (m ((c.tc : Thread nD τ).loc main_arg7)) Gen.shapeCasts_S2_S1x2 := stage0_v36 (Gen.W0 m ρ c)
theorem w1_v28 : Gen.W1 m ρ c (Proc.devRef .tc main_v28) = augIdx (srcOf (m ((c.tc : Thread nD τ).loc main_arg1))) :=
  stage0_v28 (Gen.W0 m ρ c)
theorem w1_v29 : Gen.W1 m ρ c (Proc.devRef .tc main_v29) = augIdx (dstOf (m ((c.tc : Thread nD τ).loc main_arg1))) :=
  stage0_v29 (Gen.W0 m ρ c)
theorem w1_v30 : Gen.W1 m ρ c (Proc.devRef .tc main_v30)
    = augW (normOf (m ((c.tc : Thread nD τ).loc main_arg1)))
        (mulf (dinvOf (m ((c.tc : Thread nD τ).loc main_arg1))) (dinvOf (m ((c.tc : Thread nD τ).loc main_arg1)))) :=
  stage0_v30 (Gen.W0 m ρ c)

/-- A buffer that is none of region 0's arrays holds at its exit what it held at its entry. -/
theorem w2_keep (b : Ref sig .tc) (hb : ∀ w, Pipeline.arrRef spec0 w ≠ b) :
    Gen.W2 m ρ c (Proc.devRef .tc b) = Gen.W1 m ρ c (Proc.devRef .tc b) := Gen.W2_of_ne m ρ c b hb
theorem w4_keep (b : Ref sig .tc) (hb : ∀ w, Pipeline.arrRef spec1 w ≠ b) :
    Gen.W4 m ρ c (Proc.devRef .tc b) = Gen.W3 m ρ c (Proc.devRef .tc b) := Gen.W4_of_ne m ρ c b hb

theorem w2_v28 : Gen.W2 m ρ c (Proc.devRef .tc main_v28) = augIdx (srcOf (m ((c.tc : Thread nD τ).loc main_arg1))) :=
  (w2_keep m ρ c main_v28 (by decide)).trans (w1_v28 m ρ c)
theorem w2_v29 : Gen.W2 m ρ c (Proc.devRef .tc main_v29) = augIdx (dstOf (m ((c.tc : Thread nD τ).loc main_arg1))) :=
  (w2_keep m ρ c main_v29 (by decide)).trans (w1_v29 m ρ c)
theorem w2_v30 : Gen.W2 m ρ c (Proc.devRef .tc main_v30)
    = augW (normOf (m ((c.tc : Thread nD τ).loc main_arg1)))
        (mulf (dinvOf (m ((c.tc : Thread nD τ).loc main_arg1))) (dinvOf (m ((c.tc : Thread nD τ).loc main_arg1)))) :=
  (w2_keep m ρ c main_v30 (by decide)).trans (w1_v30 m ρ c)

theorem w4_v28 : Gen.W4 m ρ c (Proc.devRef .tc main_v28) = augIdx (srcOf (m ((c.tc : Thread nD τ).loc main_arg1))) :=
  (w4_keep m ρ c main_v28 (by decide)).trans ((stage1_v28 (Gen.W2 m ρ c)).trans (w2_v28 m ρ c))
theorem w4_v29 : Gen.W4 m ρ c (Proc.devRef .tc main_v29) = augIdx (dstOf (m ((c.tc : Thread nD τ).loc main_arg1))) :=
  (w4_keep m ρ c main_v29 (by decide)).trans ((stage1_v29 (Gen.W2 m ρ c)).trans (w2_v29 m ρ c))
theorem w4_v30 : Gen.W4 m ρ c (Proc.devRef .tc main_v30)
    = augW (normOf (m ((c.tc : Thread nD τ).loc main_arg1)))
        (mulf (dinvOf (m ((c.tc : Thread nD τ).loc main_arg1))) (dinvOf (m ((c.tc : Thread nD τ).loc main_arg1)))) :=
  (w4_keep m ρ c main_v30 (by decide)).trans ((stage1_v30 (Gen.W2 m ρ c)).trans (w2_v30 m ρ c))

/-- Region 1's bias row and weights, at its entry. -/
theorem w3_v34 : Gen.W3 m ρ c (Proc.devRef .tc main_v34)
    = shapeCast S1x96 (m ((c.tc : Thread nD τ).loc main_arg3)) Gen.shapeCasts_S96_S1x96 :=
  (stage1_v34 (Gen.W2 m ρ c)).trans ((w2_keep m ρ c main_v34 (by decide)).trans (w1_v34 m ρ c))
theorem w3_v32 : Gen.W3 m ρ c (Proc.devRef .tc main_v32) = (m ((c.tc : Thread nD τ).loc main_arg4) : S96x96.Idx → EReal) :=
  (stage1_v32 (Gen.W2 m ρ c)).trans ((w2_keep m ρ c main_v32 (by decide)).trans (w1_v32 m ρ c))

/-- Region 2's bias rows and weights, at its entry. -/
theorem w5_v35 : Gen.W5 m ρ c (Proc.devRef .tc main_v35)
    = shapeCast S1x96 (m ((c.tc : Thread nD τ).loc main_arg5)) Gen.shapeCasts_S96_S1x96 :=
  (stage2_v35 (Gen.W4 m ρ c)).trans ((w4_keep m ρ c main_v35 (by decide)).trans
    ((stage1_v35 (Gen.W2 m ρ c)).trans ((w2_keep m ρ c main_v35 (by decide)).trans (w1_v35 m ρ c))))
theorem w5_v33 : Gen.W5 m ρ c (Proc.devRef .tc main_v33) = (m ((c.tc : Thread nD τ).loc main_arg6) : S96x2.Idx → EReal) :=
  (stage2_v33 (Gen.W4 m ρ c)).trans ((w4_keep m ρ c main_v33 (by decide)).trans
    ((stage1_v33 (Gen.W2 m ρ c)).trans ((w2_keep m ρ c main_v33 (by decide)).trans (w1_v33 m ρ c))))
theorem w5_v36 : Gen.W5 m ρ c (Proc.devRef .tc main_v36)
    = shapeCast S1x2 (m ((c.tc : Thread nD τ).loc main_arg7)) Gen.shapeCasts_S2_S1x2 :=
  (stage2_v36 (Gen.W4 m ρ c)).trans ((w4_keep m ρ c main_v36 (by decide)).trans
    ((stage1_v36 (Gen.W2 m ρ c)).trans ((w2_keep m ρ c main_v36 (by decide)).trans (w1_v36 m ρ c))))

/-! ## A bias vector reshaped to a row is the vector spread along a unit axis -/

open Idealize.ShloMosaic.ValueIdx in
theorem shapeCast_row96 (b : FVec Ideal S96 .f32) : shapeCast S1x96 b Gen.shapeCasts_S96_S1x96 = row96 b := by
  funext j
  obtain ⟨u, i, rfl⟩ : ∃ (u : Fin 1) (i : Fin 96), j = ix2 u i := ⟨j 0, j 1, eq_ix2 j⟩
  refine (shapeCast_a_1a_apply b _ u i).trans ?_
  unfold row96
  exact (broadcastInDim_apply _ _ b (ix2 u i) (ix1 i) (fun a => by match a with | ⟨0, _⟩ => rfl)).symm

open Idealize.ShloMosaic.ValueIdx in
theorem shapeCast_row2 (b : FVec Ideal S2 .f32) : shapeCast S1x2 b Gen.shapeCasts_S2_S1x2 = row2 b := by
  funext j
  obtain ⟨u, i, rfl⟩ : ∃ (u : Fin 1) (i : Fin 2), j = ix2 u i := ⟨j 0, j 1, eq_ix2 j⟩
  refine (shapeCast_a_1a_apply b _ u i).trans ?_
  unfold row2
  exact (broadcastInDim_apply _ _ b (ix2 u i) (ix1 i) (fun a => by match a with | ⟨0, _⟩ => rfl)).symm

/-! ## The three regions and the two aggregations, in order -/

theorem kAggAug_congr {sa sa' da da' : IVec S850000 32} {wa wa' : FVec Ideal S850000 .f32} {H H' : FVec Ideal S50000x96 .bf16}
    (h1 : sa = sa') (h2 : da = da') (h3 : wa = wa') (h4 : H = H') : kAggAug sa da wa H = kAggAug sa' da' wa' H' := by
  subst h1 h2 h3 h4; rfl

/-- The aggregation over the augmented edge lists of the graph is the specification's aggregation. -/
theorem kAggAug_graph (E : IVec S2x800000 32) (H : S50000x96.Idx → EReal) :
    kAggAug (augIdx (srcOf E)) (augIdx (dstOf E)) (augW (normOf E) (mulf (dinvOf E) (dinvOf E))) H = aggOf E H :=
  (kAggOf_eq_aug (srcOf E) (dstOf E) (normOf E) (mulf (dinvOf E) (dinvOf E)) H).symm.trans
    (kAgg_eq (srcOf E) (dstOf E) (normOf E) (mulf (dinvOf E) (dinvOf E)) H)

/-- The first layer's features before aggregation: X · W₁. -/
def feat1 : S50000x96.Idx → EReal :=
  Host.dotGeneral (F := Ideal) (φ₁ := .f32) (φ₂ := .f32) Cert.ReferenceIdeal.dot_S50000x128_S128x96_S50000x96_1_0_0_1_n_n none
    (m ((c.tc : Thread nD τ).loc main_arg0)) (m ((c.tc : Thread nD τ).loc main_arg2))

/-- The second layer's features before aggregation: relu (aggregate + b₁) · W₂. -/
def feat2 : S50000x96.Idx → EReal :=
  Host.dotGeneral (F := Ideal) (φ₁ := .f32) (φ₂ := .f32) Cert.ReferenceIdeal.dot_S50000x96_S96x96_S50000x96_1_0_0_1_n_n none
    (reluBias (aggOf (m ((c.tc : Thread nD τ).loc main_arg1)) (feat1 m c)) (row96 (m ((c.tc : Thread nD τ).loc main_arg3))))
    (m ((c.tc : Thread nD τ).loc main_arg4))

/-- Region 0 leaves X · W₁ in its output array. -/
theorem w2_v37 : Gen.W2 m ρ c (Proc.devRef .tc main_v37) = feat1 m c :=
  (Gen.W2_arr m ρ c 2).trans ((region0_final (Gen.V1 m ρ) c).trans
    (congrArg₂ (fun a b => Host.dotGeneral (F := Ideal) (φ₁ := .f32) (φ₂ := .f32)
        Cert.ReferenceIdeal.dot_S50000x128_S128x96_S50000x96_1_0_0_1_n_n none a b)
      (w1_arg0 m ρ c) (w1_v31 m ρ c)))

/-- The host then aggregates it. -/
theorem w3_v51 : Gen.W3 m ρ c (Proc.devRef .tc main_v51) = aggOf (m ((c.tc : Thread nD τ).loc main_arg1)) (feat1 m c) :=
  (stage1_v51 (Gen.W2 m ρ c)).trans ((kAggAug_congr (w2_v28 m ρ c) (w2_v29 m ρ c) (w2_v30 m ρ c) (w2_v37 m ρ c)).trans
    (kAggAug_graph _ _))

/-- Region 1 leaves relu (aggregate + b₁) · W₂. -/
theorem w4_v52 : Gen.W4 m ρ c (Proc.devRef .tc main_v52) = feat2 m c :=
  (Gen.W4_arr m ρ c 3).trans ((region1_final (Gen.V3 m ρ) c).trans
    (congrArg₂ (fun a b => Host.dotGeneral (F := Ideal) (φ₁ := .f32) (φ₂ := .f32)
        Cert.ReferenceIdeal.dot_S50000x96_S96x96_S50000x96_1_0_0_1_n_n none a b)
      (congrArg₂ reluBias (w3_v51 m ρ c) ((w3_v34 m ρ c).trans (shapeCast_row96 _))) (w3_v32 m ρ c)))

/-- The host aggregates again. -/
theorem w5_v66 : Gen.W5 m ρ c (Proc.devRef .tc main_v66) = aggOf (m ((c.tc : Thread nD τ).loc main_arg1)) (feat2 m c) :=
  (stage2_v66 (Gen.W4 m ρ c)).trans ((kAggAug_congr (w4_v28 m ρ c) (w4_v29 m ρ c) (w4_v30 m ρ c) (w4_v52 m ρ c)).trans
    (kAggAug_graph _ _))

/-- Region 2 leaves the log-softmax of the head's logits: the result buffer holds the network of the arguments. -/
theorem kValue : Gen.W6 m ρ c (Proc.devRef .tc main_v67)
    = gcn (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) :=
  (Gen.W6_arr m ρ c 4).trans ((region2_final (Gen.V5 m ρ) c).trans
    (congrArg logSoftmax (congr (congrArg₂ logitsOf
      (congrArg₂ reluBias (w5_v66 m ρ c) ((w5_v35 m ρ c).trans (shapeCast_row96 _))) (w5_v33 m ρ c))
      ((w5_v36 m ρ c).trans (shapeCast_row2 _)))))

end Cert.GCN

end
-- ==== Proof.RefRun.lean ====
/-
  The reference program's run read back: its @main is a straight line of 137 host operations (its two clamps at zero
  and its log-softmax written out in place), and every weakly fair execution ends with the result buffer holding the
  network `gcn` of Spec.lean of the eight argument arrays, the arguments unchanged.

  The result is not compared with one composed term of the 137 operations but stage by stage. The line is cut into
  five consecutive stages whose concatenation is `ops`: the first layer up to the biased aggregate, the first clamp, the
  second layer up to the biased aggregate, the second clamp, the head with its log-softmax. What a stage leaves in the
  buffers later stages read is, for ANY contents before it, the stage's function of Spec.lean (`stageA_v1` …
  `stageC`); no stage writes an argument buffer (`keepA` … `keepC`); the fold of a concatenation is the folds
  composed (`after_append`, `after_ops`). The clamps are stages of their own so that their operand is a buffer's
  contents and not the composed term of a whole layer.
-/
import proofs.«134879_j22325240005451_2_alg».proof.Proof.Spec
import proofs.«134879_j22325240005451_2_alg».proof.Proof.Gen.ReferenceIdeal
import Idealize.ShloMosaic.Lib.StableHlo.Run

noncomputable section

namespace Cert.GCN

open Idealize.ShloMosaic Idealize.ShloMosaic.TcCoe Idealize.SL.Sem Idealize.ShloMosaic.StableHlo
open Cert.ReferenceIdeal Cert.ReferenceIdeal.Gen

variable [Cert.ReferenceIdeal.Facts]

namespace RefRunHand
variable {F : FTy → Type} [FloatOps F]

/-- The first layer up to its bias: the edge lists, the first product, the degrees and their inverse square
    roots, the edge weights, the aggregation and the bias row added (58 operations, through `main_v47`). -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v4 main_v32 main_v33 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x96 ![0, 1] bcast_S800000x1_S800000x96_0_1 : (⟨S800000x1, .f32⟩ : BufTy).Contents (Elt F) → (⟨S800000x96, .f32⟩ : BufTy).Contents (Elt F)),
    binary main_v33 main_v35 main_v36 (mulf : (⟨S800000x96, .f32⟩ : BufTy).Contents (Elt F) → (⟨S800000x96, .f32⟩ : BufTy).Contents (Elt F) → (⟨S800000x96, .f32⟩ : BufTy).Contents (Elt F)),
    nullary main_cst_7 (constant S_ .f32 0x00000000#32),
    unary main_cst_7 main_v37 (broadcastInDim S50000x96 ![] bcast_S_S50000x96 : (⟨S_, .f32⟩ : BufTy).Contents (Elt F) → (⟨S50000x96, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x96 ![0, 1] bcast_S50000x1_S50000x96_0_1 : (⟨S50000x1, .f32⟩ : BufTy).Contents (Elt F) → (⟨S50000x96, .f32⟩ : BufTy).Contents (Elt F)),
    binary main_v4 main_v42 main_v43 (mulf : (⟨S50000x96, .f32⟩ : BufTy).Contents (Elt F) → (⟨S50000x96, .f32⟩ : BufTy).Contents (Elt F) → (⟨S50000x96, .f32⟩ : BufTy).Contents (Elt F)),
    binary main_v39 main_v43 main_v44 (addf : (⟨S50000x96, .f32⟩ : BufTy).Contents (Elt F) → (⟨S50000x96, .f32⟩ : BufTy).Contents (Elt F) → (⟨S50000x96, .f32⟩ : BufTy).Contents (Elt F)),
    unary main_arg3 main_v45 (broadcastInDim S1x96 ![1] bcast_S96_S1x96_1 : (⟨S96, .f32⟩ : BufTy).Contents (Elt F) → (⟨S1x96, .f32⟩ : BufTy).Contents (Elt F)),
    unary main_v45 main_v46 (broadcastInDim S50000x96 ![0, 1] bcast_S1x96_S50000x96_0_1 : (⟨S1x96, .f32⟩ : BufTy).Contents (Elt F) → (⟨S50000x96, .f32⟩ : BufTy).Contents (Elt F)),
    binary main_v44 main_v46 main_v47 (addf : (⟨S50000x96, .f32⟩ : BufTy).Contents (Elt F) → (⟨S50000x96, .f32⟩ : BufTy).Contents (Elt F) → (⟨S50000x96, .f32⟩ : BufTy).Contents (Elt F)) ]

/-- The first layer's clamp at zero (the first call, three operations, through `main_v48`). -/
abbrev opsR0 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v47) (TRef.of (T := ⟨S50000x96, .f32⟩) main_call0_v0) (TRef.of (T := ⟨S50000x96, .f32⟩) main_v48) maximumf ]

/-- The second layer up to its bias: the second product, the degrees, weights and aggregation computed again
    from the edge lists of the first stage, and the bias row added (54 operations, through `main_v92`). -/
abbrev opsB : List (HloOp τ sig (Elt F)) :=
  [ binary main_v48 main_arg4 main_v49 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    nullary main_cst_8 (constant S_ .f32 0x3F800000#32),
    unary main_cst_8 main_v50 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v51 (broadcastInDim S50000 ![] bcast_S_S50000 : (⟨S_, .f32⟩ : BufTy).Contents (Elt F) → (⟨S50000, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v54 (broadcastInDim S50000 ![] bcast_S_S50000 : (⟨S_, .f32⟩ : BufTy).Contents (Elt F) → (⟨S50000, .f32⟩ : BufTy).Contents (Elt F)),
    binary main_v53 main_v54 main_v55 (addf : (⟨S50000, .f32⟩ : BufTy).Contents (Elt F) → (⟨S50000, .f32⟩ : BufTy).Contents (Elt F) → (⟨S50000, .f32⟩ : BufTy).Contents (Elt F)),
    unary main_v55 main_v56 (Host.rsqrt : (⟨S50000, .f32⟩ : BufTy).Contents (Elt F) → (⟨S50000, .f32⟩ : BufTy).Contents (Elt F)),
    nullary main_c_11 (constantI S_ 32 0#32),
    unary main_c_11 main_v57 (broadcastInDim S800000 ![] bcast_S_S800000 : (⟨S_, .i32⟩ : BufTy).Contents (Elt F) → (⟨S800000, .i32⟩ : BufTy).Contents (Elt F)),
    binary main_v1 main_v57 main_v58 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v59 (broadcastInDim S800000 ![] bcast_S_S800000 : (⟨S_, .i32⟩ : BufTy).Contents (Elt F) → (⟨S800000, .i32⟩ : BufTy).Contents (Elt F)),
    binary main_v1 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_v56 main_v62 main_v63 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_13 (constantI S_ 32 0#32),
    unary main_c_13 main_v64 (broadcastInDim S800000 ![] bcast_S_S800000 : (⟨S_, .i32⟩ : BufTy).Contents (Elt F) → (⟨S800000, .i32⟩ : BufTy).Contents (Elt F)),
    binary main_v3 main_v64 main_v65 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v66 (broadcastInDim S800000 ![] bcast_S_S800000 : (⟨S_, .i32⟩ : BufTy).Contents (Elt F) → (⟨S800000, .i32⟩ : BufTy).Contents (Elt F)),
    binary main_v3 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_v3 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v56 main_v69 main_v70 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v63 main_v70 main_v71 (mulf : (⟨S800000, .f32⟩ : BufTy).Contents (Elt F) → (⟨S800000, .f32⟩ : BufTy).Contents (Elt F) → (⟨S800000, .f32⟩ : BufTy).Contents (Elt F)),
    nullary main_c_15 (constantI S_ 32 0#32),
    unary main_c_15 main_v72 (broadcastInDim S800000 ![] bcast_S_S800000 : (⟨S_, .i32⟩ : BufTy).Contents (Elt F) → (⟨S800000, .i32⟩ : BufTy).Contents (Elt F)),
    binary main_v1 main_v72 main_v73 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v74 (broadcastInDim S800000 ![] bcast_S_S800000 : (⟨S_, .i32⟩ : BufTy).Contents (Elt F) → (⟨S800000, .i32⟩ : BufTy).Contents (Elt F)),
    binary main_v1 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v1 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v49 main_v77 main_v78 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_v71 main_v79 (broadcastInDim S800000x1 ![0] bcast_S800000_S800000x1_0 : (⟨S800000, .f32⟩ : BufTy).Contents (Elt F) → (⟨S800000x1, .f32⟩ : BufTy).Contents (Elt F)),
    unary main_v79 main_v80 (broadcastInDim S800000x96 ![0, 1] bcast_S800000x1_S800000x96_0_1 : (⟨S800000x1, .f32⟩ : BufTy).Contents (Elt F) → (⟨S800000x96, .f32⟩ : BufTy).Contents (Elt F)),
    binary main_v78 main_v80 main_v81 (mulf : (⟨S800000x96, .f32⟩ : BufTy).Contents (Elt F) → (⟨S800000x96, .f32⟩ : BufTy).Contents (Elt F) → (⟨S800000x96, .f32⟩ : BufTy).Contents (Elt F)),
    nullary main_cst_17 (constant S_ .f32 0x00000000#32),
    unary main_cst_17 main_v82 (broadcastInDim S50000x96 ![] bcast_S_S50000x96 : (⟨S_, .f32⟩ : BufTy).Contents (Elt F) → (⟨S50000x96, .f32⟩ : BufTy).Contents (Elt F)),
    unary main_v3 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v56 main_v56 main_v85 (mulf : (⟨S50000, .f32⟩ : BufTy).Contents (Elt F) → (⟨S50000, .f32⟩ : BufTy).Contents (Elt F) → (⟨S50000, .f32⟩ : BufTy).Contents (Elt F)),
    unary main_v85 main_v86 (broadcastInDim S50000x1 ![0] bcast_S50000_S50000x1_0 : (⟨S50000, .f32⟩ : BufTy).Contents (Elt F) → (⟨S50000x1, .f32⟩ : BufTy).Contents (Elt F)),
    unary main_v86 main_v87 (broadcastInDim S50000x96 ![0, 1] bcast_S50000x1_S50000x96_0_1 : (⟨S50000x1, .f32⟩ : BufTy).Contents (Elt F) → (⟨S50000x96, .f32⟩ : BufTy).Contents (Elt F)),
    binary main_v49 main_v87 main_v88 (mulf : (⟨S50000x96, .f32⟩ : BufTy).Contents (Elt F) → (⟨S50000x96, .f32⟩ : BufTy).Contents (Elt F) → (⟨S50000x96, .f32⟩ : BufTy).Contents (Elt F)),
    binary main_v84 main_v88 main_v89 (addf : (⟨S50000x96, .f32⟩ : BufTy).Contents (Elt F) → (⟨S50000x96, .f32⟩ : BufTy).Contents (Elt F) → (⟨S50000x96, .f32⟩ : BufTy).Contents (Elt F)),
    unary main_arg5 main_v90 (broadcastInDim S1x96 ![1] bcast_S96_S1x96_1 : (⟨S96, .f32⟩ : BufTy).Contents (Elt F) → (⟨S1x96, .f32⟩ : BufTy).Contents (Elt F)),
    unary main_v90 main_v91 (broadcastInDim S50000x96 ![0, 1] bcast_S1x96_S50000x96_0_1 : (⟨S1x96, .f32⟩ : BufTy).Contents (Elt F) → (⟨S50000x96, .f32⟩ : BufTy).Contents (Elt F)),
    binary main_v89 main_v91 main_v92 (addf : (⟨S50000x96, .f32⟩ : BufTy).Contents (Elt F) → (⟨S50000x96, .f32⟩ : BufTy).Contents (Elt F) → (⟨S50000x96, .f32⟩ : BufTy).Contents (Elt F)) ]

/-- The second layer's clamp at zero (the second call, three operations, through `main_v93`). -/
abbrev opsR1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v92) (TRef.of (T := ⟨S50000x96, .f32⟩) main_call1_v0) (TRef.of (T := ⟨S50000x96, .f32⟩) main_v93) maximumf ]

/-- The classifier's logits and the row-wise log-softmax (19 operations, through `main_v98`). -/
abbrev opsC : List (HloOp τ sig (Elt F)) :=
  [ binary main_v93 main_arg6 main_v94 ((fun l r => Host.dotGeneral dot_S50000x96_S96x2_S50000x2_1_0_0_1_n_n none l r) : (⟨S50000x96, .f32⟩ : BufTy).Contents (Elt F) → (⟨S96x2, .f32⟩ : BufTy).Contents (Elt F) → (⟨S50000x2, .f32⟩ : BufTy).Contents (Elt F)),
    unary main_arg7 main_v95 (broadcastInDim S1x2 ![1] bcast_S2_S1x2_1 : (⟨S2, .f32⟩ : BufTy).Contents (Elt F) → (⟨S1x2, .f32⟩ : BufTy).Contents (Elt F)),
    unary main_v95 main_v96 (broadcastInDim S50000x2 ![0, 1] bcast_S1x2_S50000x2_0_1 : (⟨S1x2, .f32⟩ : BufTy).Contents (Elt F) → (⟨S50000x2, .f32⟩ : BufTy).Contents (Elt F)),
    binary main_v94 main_v96 main_v97 (addf : (⟨S50000x2, .f32⟩ : BufTy).Contents (Elt F) → (⟨S50000x2, .f32⟩ : BufTy).Contents (Elt F) → (⟨S50000x2, .f32⟩ : BufTy).Contents (Elt F)),
    TRef.nullary (TRef.of (T := ⟨S_, .f32⟩) main_call2_cst) (constant S_ .f32 0xFF800000#32),
    TRef.binary (TRef.of (T := ⟨S50000x2, .f32⟩) main_v97) (TRef.of (T := ⟨S_, .f32⟩) main_call2_cst) (TRef.of (T := ⟨S50000, .f32⟩) main_call2_v0) (fun x v => Host.reduce FloatOps.maximumf x v reducesTo_S50000x2_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x2, .f32⟩) main_call2_v4) (broadcastInDim S50000x2 ![0, 1] bcast_S50000x1_S50000x2_0_1),
    TRef.binary (TRef.of (T := ⟨S50000x2, .f32⟩) main_v97) (TRef.of (T := ⟨S50000x2, .f32⟩) main_call2_v4) (TRef.of (T := ⟨S50000x2, .f32⟩) main_call2_v5) subf,
    TRef.unary (TRef.of (T := ⟨S50000x2, .f32⟩) main_call2_v5) (TRef.of (T := ⟨S50000x2, .f32⟩) main_call2_v6) Host.exp,
    TRef.nullary (TRef.of (T := ⟨S_, .f32⟩) main_call2_cst_1) (constant S_ .f32 0x00000000#32),
    TRef.binary (TRef.of (T := ⟨S50000x2, .f32⟩) main_call2_v6) (TRef.of (T := ⟨S_, .f32⟩) main_call2_cst_1) (TRef.of (T := ⟨S50000, .f32⟩) main_call2_v7) (fun x v => Host.reduceAdd x v reducesTo_S50000x2_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x2, .f32⟩) main_call2_v10) (broadcastInDim S50000x2 ![0, 1] bcast_S50000x1_S50000x2_0_1),
    TRef.binary (TRef.of (T := ⟨S50000x2, .f32⟩) main_call2_v5) (TRef.of (T := ⟨S50000x2, .f32⟩) main_call2_v10) (TRef.of (T := ⟨S50000x2, .f32⟩) main_v98) subf ]

/-- @main's 137 operations, in order: the five stages one after the other. -/
abbrev ops : List (HloOp τ sig (Elt F)) := opsA ++ (opsR0 ++ (opsB ++ (opsR1 ++ opsC)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Two lines run one after the other leave what their concatenation leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole line as its five stages, each run from what the one before left. -/
theorem after_ops (V : Valuation τ sig (Elt F)) :
    after (ops (F := F)) V = after opsC (after opsR1 (after opsB (after opsR0 (after opsA V)))) := by
  show after (opsA ++ (opsR0 ++ (opsB ++ (opsR1 ++ opsC)))) V = _
  rw [after_append, after_append, after_append, after_append]

/-- The eight argument buffers. -/
abbrev argRefs : List (Ref sig .tc) := [main_arg0, main_arg1, main_arg2, main_arg3, main_arg4, main_arg5, main_arg6, main_arg7]

/-! ### No stage writes an argument buffer (nor the clamp the edge lists' buffers) -/

set_option maxHeartbeats 2000000 in
theorem keepA (V : Valuation τ sig (Elt F)) :
    ∀ r ∈ argRefs, after (opsA (F := F)) V (Proc.devRef .tc r) = V (Proc.devRef .tc r) := by
  intro r hr
  simp only [argRefs, List.mem_cons, List.not_mem_nil, or_false] at hr
  rcases hr with rfl | rfl | rfl | rfl | rfl | rfl | rfl | rfl <;> after_results_simp

set_option maxHeartbeats 2000000 in
theorem keepR0 (V : Valuation τ sig (Elt F)) :
    ∀ r ∈ argRefs, after (opsR0 (F := F)) V (Proc.devRef .tc r) = V (Proc.devRef .tc r) := by
  intro r hr
  simp only [argRefs, List.mem_cons, List.not_mem_nil, or_false] at hr
  rcases hr with rfl | rfl | rfl | rfl | rfl | rfl | rfl | rfl <;> after_results_simp

set_option maxHeartbeats 2000000 in
theorem keepB (V : Valuation τ sig (Elt F)) :
    ∀ r ∈ argRefs, after (opsB (F := F)) V (Proc.devRef .tc r) = V (Proc.devRef .tc r) := by
  intro r hr
  simp only [argRefs, List.mem_cons, List.not_mem_nil, or_false] at hr
  rcases hr with rfl | rfl | rfl | rfl | rfl | rfl | rfl | rfl <;> after_results_simp

set_option maxHeartbeats 2000000 in
theorem keepR1 (V : Valuation τ sig (Elt F)) :
    ∀ r ∈ argRefs, after (opsR1 (F := F)) V (Proc.devRef .tc r) = V (Proc.devRef .tc r) := by
  intro r hr
  simp only [argRefs, List.mem_cons, List.not_mem_nil, or_false] at hr
  rcases hr with rfl | rfl | rfl | rfl | rfl | rfl | rfl | rfl <;> after_results_simp

set_option maxHeartbeats 2000000 in
theorem keepC (V : Valuation τ sig (Elt F)) :
    ∀ r ∈ argRefs, after (opsC (F := F)) V (Proc.devRef .tc r) = V (Proc.devRef .tc r) := by
  intro r hr
  simp only [argRefs, List.mem_cons, List.not_mem_nil, or_false] at hr
  rcases hr with rfl | rfl | rfl | rfl | rfl | rfl | rfl | rfl <;> after_results_simp

theorem keepR0_v1 (V : Valuation τ sig (Elt F)) :
    after (opsR0 (F := F)) V (Proc.devRef .tc main_v1) = V (Proc.devRef .tc main_v1) := by after_results_simp
theorem keepR0_v3 (V : Valuation τ sig (Elt F)) :
    after (opsR0 (F := F)) V (Proc.devRef .tc main_v3) = V (Proc.devRef .tc main_v3) := by after_results_simp

/-- The whole line leaves every argument buffer as it found it. -/
theorem keep (V : Valuation τ sig (Elt F)) :
    ∀ r ∈ argRefs, after (ops (F := F)) V (Proc.devRef .tc r) = V (Proc.devRef .tc r) := by
  intro r hr
  rw [after_ops, keepC _ r hr, keepR1 _ r hr, keepB _ r hr, keepR0 _ r hr, keepA _ r hr]

/-! ### What each stage leaves, over the extended reals

Each stage's result buffer, for ANY contents `V` before it, is the stage's function of Spec.lean applied to `V` at the
buffers the stage reads: the fold unrolled, each operation's result read at its own buffer, the equation is between the
same applications in the same order. The array operations are kept folded meanwhile (the equation never looks inside them). -/

attribute [local irreducible] subf addf mulf maximumf select cmpi addi broadcastInDim constant constantI extractStridedSlice shapeCast Host.scatterAdd Host.gather Host.rsqrt Host.reduce Host.reduceAdd Host.exp Host.log in
theorem stageA_v1 (V : Valuation τ sig (Elt Ideal)) :
    after (opsA (F := Ideal)) V (Proc.devRef .tc main_v1) = srcOf (V (Proc.devRef .tc main_arg1)) := by
  after_results_simp
  rfl

attribute [local irreducible] subf addf mulf maximumf select cmpi addi broadcastInDim constant constantI extractStridedSlice shapeCast Host.scatterAdd Host.gather Host.rsqrt Host.reduce Host.reduceAdd Host.exp Host.log in
theorem stageA_v3 (V : Valuation τ sig (Elt Ideal)) :
    after (opsA (F := Ideal)) V (Proc.devRef .tc main_v3) = dstOf (V (Proc.devRef .tc main_arg1)) := by
  after_results_simp
  rfl

attribute [local irreducible] subf addf mulf maximumf select cmpi addi broadcastInDim constant constantI extractStridedSlice shapeCast Host.scatterAdd Host.gather Host.rsqrt Host.reduce Host.reduceAdd Host.exp Host.log in
theorem stageA_v47 (V : Valuation τ sig (Elt Ideal)) :
    after (opsA (F := Ideal)) V (Proc.devRef .tc main_v47)
      = addf (aggOf (V (Proc.devRef .tc main_arg1)) (Host.dotGeneral (φ₁ := .f32) (φ₂ := .f32) dot_S50000x128_S128x96_S50000x96_1_0_0_1_n_n none (V (Proc.devRef .tc main_arg0)) (V (Proc.devRef .tc main_arg2))))
          (broadcastInDim S50000x96 ![0, 1] bcast_S1x96_S50000x96_0_1 (row96 (V (Proc.devRef .tc main_arg3)))) := by
  after_results_simp
  rfl

attribute [local irreducible] subf addf mulf maximumf select cmpi addi broadcastInDim constant constantI extractStridedSlice shapeCast Host.scatterAdd Host.gather Host.rsqrt Host.reduce Host.reduceAdd Host.exp Host.log in
theorem stageR0 (W : Valuation τ sig (Elt Ideal)) :
    after (opsR0 (F := Ideal)) W (Proc.devRef .tc main_v48) = (maximumf (W (Proc.devRef .tc main_v47)) (broadcastInDim S50000x96 ![] bcast_S_S50000x96 (constant S_ .f32 0x00000000#32)) : FVec Ideal S50000x96 .f32) := by
  after_results_simp
  rfl

attribute [local irreducible] subf addf mulf maximumf select cmpi addi broadcastInDim constant constantI extractStridedSlice shapeCast Host.scatterAdd Host.gather Host.rsqrt Host.reduce Host.reduceAdd Host.exp Host.log in
theorem stageB_v92 (W : Valuation τ sig (Elt Ideal)) (E : IVec S2x800000 32)
    (h1 : W (Proc.devRef .tc main_v1) = srcOf E) (h3 : W (Proc.devRef .tc main_v3) = dstOf E) :
    after (opsB (F := Ideal)) W (Proc.devRef .tc main_v92)
      = addf (aggOf E (Host.dotGeneral (φ₁ := .f32) (φ₂ := .f32) dot_S50000x96_S96x96_S50000x96_1_0_0_1_n_n none (W (Proc.devRef .tc main_v48)) (W (Proc.devRef .tc main_arg4))))
          (broadcastInDim S50000x96 ![0, 1] bcast_S1x96_S50000x96_0_1 (row96 (W (Proc.devRef .tc main_arg5)))) := by
  after_results_simp
  rw [h1, h3]
  rfl

attribute [local irreducible] subf addf mulf maximumf select cmpi addi broadcastInDim constant constantI extractStridedSlice shapeCast Host.scatterAdd Host.gather Host.rsqrt Host.reduce Host.reduceAdd Host.exp Host.log in
theorem stageR1 (W : Valuation τ sig (Elt Ideal)) :
    after (opsR1 (F := Ideal)) W (Proc.devRef .tc main_v93) = (maximumf (W (Proc.devRef .tc main_v92)) (broadcastInDim S50000x96 ![] bcast_S_S50000x96 (constant S_ .f32 0x00000000#32)) : FVec Ideal S50000x96 .f32) := by
  after_results_simp
  rfl

attribute [local irreducible] subf addf mulf maximumf select cmpi addi broadcastInDim constant constantI extractStridedSlice shapeCast Host.scatterAdd Host.gather Host.rsqrt Host.reduce Host.reduceAdd Host.exp Host.log in
theorem stageC (V : Valuation τ sig (Elt Ideal)) :
    after (opsC (F := Ideal)) V (Proc.devRef .tc main_v98)
      = logSoftmax (logitsOf (V (Proc.devRef .tc main_v93)) (V (Proc.devRef .tc main_arg6)) (row2 (V (Proc.devRef .tc main_arg7)))) := by
  after_results_simp
  rfl

/-- The result buffer after the whole line holds the network of the arguments' contents. -/
theorem out_eq (V : Valuation τ sig (Elt Ideal)) :
    after (ops (F := Ideal)) V (Proc.devRef .tc main_v98) = gcn (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  have h1 : after (opsR0 (F := Ideal)) (after opsA V) (Proc.devRef .tc main_v1) = srcOf (V (Proc.devRef .tc main_arg1)) :=
    (keepR0_v1 _).trans (stageA_v1 V)
  have h3 : after (opsR0 (F := Ideal)) (after opsA V) (Proc.devRef .tc main_v3) = dstOf (V (Proc.devRef .tc main_arg1)) :=
    (keepR0_v3 _).trans (stageA_v3 V)
  rw [after_ops, stageC, stageR1, stageB_v92 _ (V (Proc.devRef .tc main_arg1)) h1 h3, stageR0, stageA_v47,
    keepR1 _ main_arg6 (by decide), keepB _ main_arg6 (by decide), keepR0 _ main_arg6 (by decide), keepA _ main_arg6 (by decide),
    keepR1 _ main_arg7 (by decide), keepB _ main_arg7 (by decide), keepR0 _ main_arg7 (by decide), keepA _ main_arg7 (by decide),
    keepR0 _ main_arg4 (by decide), keepA _ main_arg4 (by decide), keepR0 _ main_arg5 (by decide), keepA _ main_arg5 (by decide)]
  rfl

end RefRunHand

open RefRunHand in
/-- On every device, over the extended reals, from any memory with zero counters: every weakly fair execution of
    @main terminates with the result buffer at the network `gcn` of the arguments' launch contents and the arguments
    unchanged. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98)
        = gcn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v98).trans (out_eq _),
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide))⟩)
    (run_seq scopedRefs_eq scopedSems_eq defs main (fun _ => ops) main_eq (fun _ => ops_sub) m ρ)

end Cert.GCN

end
-- ==== Proof.lean ====
/-
  The certificate of a two-layer graph convolution network with a log-softmax head, 50000 nodes and 800000 edges:
  a kernel program of three regions (X · W₁; relu (A₁ + b₁) · W₂; log-softmax (relu (A₂ + b₂) · Wc + bc)) with the
  message passing on the host between them, against a plain reference.

  Both compute, over the extended reals, the network `Cert.GCN.gcn` (Proof/Spec.lean). The one place where the two
  differ in more than spelling is the aggregation A = Σ over the edges into a node of the weighted source rows, plus
  the node's own row times dinv²: the reference adds the own row as a separate term; the kernel program appends the
  50000 self edges i → i, with weight dinv², to the edge lists and takes ONE sum over the 850000 entries. The two are
  equal because a finite sum over the extended reals may be split and reordered freely (addition there is commutative
  and associative; no finiteness of the inputs is used). Roundings to the half-width float format are the identity
  here, a region's matrix product and the host's are the same contraction, and a lane reduction and a host reduction
  are the same sum or maximum.

  The frames of the two kernel programs are the generated ones; the reference's frame is its run with the result dropped;
  the ideal pass rewrote nothing.
-/
import proofs.«134879_j22325240005451_2_alg».proof.Defs
import proofs.«134879_j22325240005451_2_alg».proof.Proof.Gen.Kernel
import proofs.«134879_j22325240005451_2_alg».proof.Proof.Gen.Kernel.Skeleton
import proofs.«134879_j22325240005451_2_alg».proof.Proof.Gen.Kernel.Launch
import proofs.«134879_j22325240005451_2_alg».proof.Proof.Gen.Kernel.Points
import proofs.«134879_j22325240005451_2_alg».proof.Proof.Gen.Kernel.Frame
import proofs.«134879_j22325240005451_2_alg».proof.Proof.Gen.KernelIdeal
import proofs.«134879_j22325240005451_2_alg».proof.Proof.Gen.KernelIdeal.Skeleton
import proofs.«134879_j22325240005451_2_alg».proof.Proof.Gen.KernelIdeal.Launch
import proofs.«134879_j22325240005451_2_alg».proof.Proof.Gen.KernelIdeal.Points
import proofs.«134879_j22325240005451_2_alg».proof.Proof.Gen.KernelIdeal.Frame
import proofs.«134879_j22325240005451_2_alg».proof.Proof.Gen.ReferenceIdeal
import proofs.«134879_j22325240005451_2_alg».proof.Proof.Gen.Pre_finite_inputs
import proofs.«134879_j22325240005451_2_alg».proof.Proof.Spec
import proofs.«134879_j22325240005451_2_alg».proof.Proof.KRun
import proofs.«134879_j22325240005451_2_alg».proof.Proof.KChain
import proofs.«134879_j22325240005451_2_alg».proof.Proof.RefRun
import Idealize.ShloMosaic.Adequacy
import Idealize.ShloMosaic.Init

noncomputable section

namespace Cert.Proof

open Idealize.ShloMosaic Idealize.SL.Sem

/-- The word-level kernel program runs and leaves its arguments unchanged (the generated frame). -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.GCN.refRun m ρ)

/-- The ideal pass rewrote nothing. -/
theorem preserves : Cert.preserves_Kernel_KernelIdeal := trivial

/-- Both idealized programs, from memories agreeing on the arguments, end with the network `Cert.GCN.gcn` of the
    arguments in their result buffers: the kernel's three regions and two host aggregations compute it with the self
    loops folded into the edge lists, the reference with the self term added separately; the two aggregations are one
    sum (`Cert.GCN.kAgg_eq`). -/
theorem algebraic : Cert.algebraic_KernelIdeal_ReferenceIdeal := by
  intro m ρ m' ρ' _ hagree
  refine ⟨fun c => Cert.GCN.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.GCN.kValue m ρ c), (h c).2⟩)
      (Cert.GCN.kRun (F := Ideal) m ρ)
  · refine (θ_run Cert.ReferenceIdeal.defs _ _).mono (fun r h c => ⟨(h c).1.trans ?_, (h c).2⟩) (Cert.GCN.refRun m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
